-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S1x2400000 : Shape := ⟨2, ![1, 2400000]⟩
abbrev S2400000 : Shape := ⟨1, ![2400000]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  slices_S2x2400000_S1x2400000_1_0 : S2x2400000.Slices ![1, 0] S1x2400000
  shapeCasts_S1x2400000_S2400000 : S1x2400000.ShapeCasts S2400000
  bcast_S_S2400000 : S_.BroadcastsInDim S2400000 (![] : Fin 0 → Fin S2400000.rank)
  reducesTo_S2400000_S_d0 : S2400000.ReducesTo [0] S_

variable [Facts]

def fn_part6 {F : FTy → Type} [FloatOps F] (main_arg1 : IVec S2x2400000 32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_v104 : IVec S1x2400000 32 := (extractStridedSlice S1x2400000 ![1, 0] · slices_S2x2400000_S1x2400000_1_0) main_arg1
  let main_v105 : IVec S2400000 32 := shapeCast S2400000 main_v104 shapeCasts_S1x2400000_S2400000
  let main_c_40 : IVec S_ 32 := constantI S_ 32 0#32
  let main_v106 : IVec S2400000 32 := broadcastInDim S2400000 ![] bcast_S_S2400000 main_c_40
  let main_v107 : IVec S2400000 1 := cmpi .sge main_v105 main_v106
  let main_c_41 : IVec S_ 1 := constantI S_ 1 1#1
  let main_v108 : IVec S_ 1 := (fun x v => Host.reduce IntOp.andi x v reducesTo_S2400000_S_d0 h_S_) main_v107 main_c_41
  let main_v109 : IVec S_ 1 := andi main_v103 main_v108
  main_v109

def fn_part5 {F : FTy → Type} [FloatOps F] (main_arg1 : IVec S2x2400000 32) (main_arg20 : FVec F S32 .f32) (main_arg21 : FVec F S32x2 .f32) (main_arg22 : FVec F S2 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x2 .f32 := Host.absf main_arg21
  let main_cst_36 : FVec F S_ .f32 := constant S_ .f32 0x7F800000#32
  let main_v95 : FVec F S32x2 .f32 := broadcastInDim S32x2 ![] bcast_S_S32x2 main_cst_36
  let main_v96 : IVec S32x2 1 := cmpf .olt main_v94 main_v95
  let main_c_37 : IVec S_ 1 := constantI S_ 1 1#1
  let main_v97 : IVec S_ 1 := (fun x v => Host.reduce IntOp.andi x v reducesTo_S32x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg1 main_v98 main_v101 main_c_39

def fn_part4 {F : FTy → Type} [FloatOps F] (main_arg1 : IVec S2x2400000 32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg1 main_arg20 main_arg21 main_arg22 main_v83 main_v84 main_cst_32

def fn_part3 {F : FTy → Type} [FloatOps F] (main_arg1 : IVec S2x2400000 32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg16 main_arg17 main_arg18 main_arg19 main_arg20 main_arg21 main_arg22 main_v63 main_v67

def fn_part2 {F : FTy → Type} [FloatOps F] (main_arg1 : IVec S2x2400000 32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_arg15 main_arg16 main_arg17 main_arg18 main_arg19 main_arg20 main_arg21 main_arg22 main_v48 main_v49 main_v50

def fn_part1 {F : FTy → Type} [FloatOps F] (main_arg1 : IVec S2x2400000 32) (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_v33

def fn {F : FTy → Type} [FloatOps F] (main_arg0 : FVec F S150000x64 .f32) (main_arg1 : IVec S2x2400000 32) (main_arg2 : IVec S150000 32) (main_arg3 : FVec F S64x32 .f32) (main_arg4 : FVec F S32 .f32) (main_arg5 : FVec F S32x32 .f32) (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x2 .f32) (main_arg22 : FVec F S2 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x2400000 : Shape := ⟨2, ![1, 2400000]⟩
abbrev S2400000 : Shape := ⟨1, ![2400000]⟩
abbrev S_ : Shape := ⟨0, ![]⟩
abbrev S2400000x1 : Shape := ⟨2, ![2400000, 1]⟩
abbrev S2400000x64 : Shape := ⟨2, ![2400000, 64]⟩
abbrev S150000x32 : Shape := ⟨2, ![150000, 32]⟩
abbrev S6000x64 : Shape := ⟨2, ![6000, 64]⟩
abbrev S6000x32 : Shape := ⟨2, ![6000, 32]⟩
abbrev S1x32 : Shape := ⟨2, ![1, 32]⟩
abbrev S2400000x32 : Shape := ⟨2, ![2400000, 32]⟩
abbrev S256x32 : Shape := ⟨2, ![256, 32]⟩
abbrev S150000x1 : Shape := ⟨2, ![150000, 1]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 76
  | .vmem => 30
  | .smem => 0
  | _ => 0

abbrev bufTy : (tb : Table) → Fin (tcTables nBuf tb) → BufTy
  | .hbm, ⟨0, _⟩ => ⟨S150000x64, .f32⟩
  | .hbm, ⟨1, _⟩ => ⟨S2x2400000, .i32⟩
  | .hbm, ⟨2, _⟩ => ⟨S150000, .i32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S1x2400000, .i32⟩
  | .hbm, ⟨24, _⟩ => ⟨S2400000, .i32⟩
  | .hbm, ⟨25, _⟩ => ⟨S1x2400000, .i32⟩
  | .hbm, ⟨26, _⟩ => ⟨S2400000, .i32⟩
  | .hbm, ⟨27, _⟩ => ⟨S_, .i32⟩
  | .hbm, ⟨28, _⟩ => ⟨S2400000, .i32⟩
  | .hbm, ⟨29, _⟩ => ⟨S2400000, .i1⟩
  | .hbm, ⟨30, _⟩ => ⟨S_, .i32⟩
  | .hbm, ⟨31, _⟩ => ⟨S2400000, .i32⟩
  | .hbm, ⟨32, _⟩ => ⟨S2400000, .i32⟩
  | .hbm, ⟨33, _⟩ => ⟨S2400000, .i32⟩
  | .hbm, ⟨34, _⟩ => ⟨S2400000x1, .i32⟩
  | .hbm, ⟨35, _⟩ => ⟨S2400000x64, .f32⟩
  | .hbm, ⟨36, _⟩ => ⟨S_, .i32⟩
  | .hbm, ⟨37, _⟩ => ⟨S2400000, .i32⟩
  | .hbm, ⟨38, _⟩ => ⟨S2400000, .i1⟩
  | .hbm, ⟨39, _⟩ => ⟨S_, .i32⟩
  | .hbm, ⟨40, _⟩ => ⟨S2400000, .i32⟩
  | .hbm, ⟨41, _⟩ => ⟨S2400000, .i32⟩
  | .hbm, ⟨42, _⟩ => ⟨S2400000, .i32⟩
  | .hbm, ⟨43, _⟩ => ⟨S2400000x1, .i32⟩
  | .hbm, ⟨44, _⟩ => ⟨S150000x64, .f32⟩
  | .hbm, ⟨45, _⟩ => ⟨S64x32, .bf16⟩
  | .hbm, ⟨46, _⟩ => ⟨S32x32, .bf16⟩
  | .hbm, ⟨47, _⟩ => ⟨S150000x32, .f32⟩
  | .hbm, ⟨48, _⟩ => ⟨S_, .i32⟩
  | .hbm, ⟨49, _⟩ => ⟨S2400000, .i32⟩
  | .hbm, ⟨50, _⟩ => ⟨S2400000, .i1⟩
  | .hbm, ⟨51, _⟩ => ⟨S_, .i32⟩
  | .hbm, ⟨52, _⟩ => ⟨S2400000, .i32⟩
  | .hbm, ⟨53, _⟩ => ⟨S2400000, .i32⟩
  | .hbm, ⟨54, _⟩ => ⟨S2400000, .i32⟩
  | .hbm, ⟨55, _⟩ => ⟨S2400000x1, .i32⟩
  | .hbm, ⟨56, _⟩ => ⟨S2400000x32, .f32⟩
  | .hbm, ⟨57, _⟩ => ⟨S_, .i32⟩
  | .hbm, ⟨58, _⟩ => ⟨S2400000, .i32⟩
  | .hbm, ⟨59, _⟩ => ⟨S2400000, .i1⟩
  | .hbm, ⟨60, _⟩ => ⟨S_, .i32⟩
  | .hbm, ⟨61, _⟩ => ⟨S2400000, .i32⟩
  | .hbm, ⟨62, _⟩ => ⟨S2400000, .i32⟩
  | .hbm, ⟨63, _⟩ => ⟨S2400000, .i32⟩
  | .hbm, ⟨64, _⟩ => ⟨S2400000x1, .i32⟩
  | .hbm, ⟨65, _⟩ => ⟨S150000x32, .f32⟩
  | .hbm, ⟨66, _⟩ => ⟨S32x32, .bf16⟩
  | .hbm, ⟨67, _⟩ => ⟨S32x32, .bf16⟩
  | .hbm, ⟨68, _⟩ => ⟨S150000x32, .f32⟩
  | .hbm, ⟨69, _⟩ => ⟨S_, .f32⟩
  | .hbm, ⟨70, _⟩ => ⟨S256x32, .f32⟩
  | .hbm, ⟨71, _⟩ => ⟨S150000x1, .i32⟩
  | .hbm, ⟨72, _⟩ => ⟨S256x32, .f32⟩
  | .hbm, ⟨73, _⟩ => ⟨S32x32, .bf16⟩
  | .hbm, ⟨74, _⟩ => ⟨S32x2, .bf16⟩
  | .hbm, ⟨75, _⟩ => ⟨S256x2, .f32⟩
  | .local _ .vmem, ⟨0, _⟩ => ⟨S6000x64, .f32⟩
  | .local _ .vmem, ⟨1, _⟩ => ⟨S6000x64, .f32⟩
  | .local _ .vmem, ⟨2, _⟩ => ⟨S64x32, .bf16⟩
  | .local _ .vmem, ⟨3, _⟩ => ⟨S32, .f32⟩
  | .local _ .vmem, ⟨4, _⟩ => ⟨S32x32, .bf16⟩
  | .local _ .vmem, ⟨5, _⟩ => ⟨S32, .f32⟩
  | .local _ .vmem, ⟨6, _⟩ => ⟨S32, .f32⟩
  | .local _ .vmem, ⟨7, _⟩ => ⟨S32, .f32⟩
  | .local _ .vmem, ⟨8, _⟩ => ⟨S32, .f32⟩
  | .local _ .vmem, ⟨9, _⟩ => ⟨S32, .f32⟩
  | .local _ .vmem, ⟨10, _⟩ => ⟨S6000x32, .f32⟩
  | .local _ .vmem, ⟨11, _⟩ => ⟨S6000x32, .f32⟩
  | .local _ .vmem, ⟨12, _⟩ => ⟨S6000x32, .f32⟩
  | .local _ .vmem, ⟨13, _⟩ => ⟨S6000x32, .f32⟩
  | .local _ .vmem, ⟨14, _⟩ => ⟨S32x32, .bf16⟩
  | .local _ .vmem, ⟨15, _⟩ => ⟨S32, .f32⟩
  | .local _ .vmem, ⟨16, _⟩ => ⟨S32x32, .bf16⟩
  | .local _ .vmem, ⟨17, _⟩ => ⟨S32, .f32⟩
  | .local _ .vmem, ⟨18, _⟩ => ⟨S32, .f32⟩
  | .local _ .vmem, ⟨19, _⟩ => ⟨S32, .f32⟩
  | .local _ .vmem, ⟨20, _⟩ => ⟨S32, .f32⟩
  | .local _ .vmem, ⟨21, _⟩ => ⟨S32, .f32⟩
  | .local _ .vmem, ⟨22, _⟩ => ⟨S6000x32, .f32⟩
  | .local _ .vmem, ⟨23, _⟩ => ⟨S6000x32, .f32⟩
  | .local _ .vmem, ⟨24, _⟩ => ⟨S256x32, .f32⟩
  | .local _ .vmem, ⟨25, _⟩ => ⟨S32x32, .bf16⟩
  | .local _ .vmem, ⟨26, _⟩ => ⟨S32, .f32⟩
  | .local _ .vmem, ⟨27, _⟩ => ⟨S32x2, .bf16⟩
  | .local _ .vmem, ⟨28, _⟩ => ⟨S2, .f32⟩
  | .local _ .vmem, ⟨29, _⟩ => ⟨S256x2, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_c_4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S6000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S32x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x2 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S2400000_S2400000x1_0 : S2400000.BroadcastsInDim S2400000x1 (![0] : Fin 1 → Fin S2400000x1.rank)
  bitsLt_bf16_f32 : FTy.bits .bf16 < FTy.bits .f32
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S6000x32_S6000x32_0_0 : ∀ a, (![0, 0] : Fin 2 → Nat) a + S6000x32.size a ≤ S6000x32.size a
  h_S6000x32 : 0 < S6000x32.numel
  shapeCasts_S6000x32_S6000x32 : S6000x32.ShapeCasts S6000x32
  bcast_S_S256x32 : S_.BroadcastsInDim S256x32 (![] : Fin 0 → Fin S256x32.rank)
  bcast_S150000_S150000x1_0 : S150000.BroadcastsInDim S150000x1 (![0] : Fin 1 → Fin S150000x1.rank)
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S6000x64_S64x32_S6000x32_1_0_0_1_n_n_wf : DotDims.WF S6000x64 S64x32 S6000x32 [1] [0] [0] [1] [] []
  dot_S6000x32_S32x32_S6000x32_1_0_0_1_n_n_wf : DotDims.WF S6000x32 S32x32 S6000x32 [1] [0] [0] [1] [] []
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  scatter_S256x32_S150000x1_S150000x32_1_0_0_1_wf : ScatterDims.WF S256x32 S150000x1 S150000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .bf16 = 32 ∨ (Rect.block (s := S64x32) S64x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .bf16 = 32 ∨ (Rect.block (s := S32x32) S32x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x32.size a ≤ S150000x32.size a
  hwx0_9 : ∀ i : grid0.Coords, EltTy.bits .f32 = 32 ∨ (Rect.block (s := S150000x32) S6000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .bf16 = 32 ∨ (Rect.block (s := S32x32) S32x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .bf16 = 32 ∨ (Rect.block (s := S32x32) S32x32.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32.size a ≤ S32.size a
  hwx1_7 : ∀ i : grid1.Coords, EltTy.bits .f32 = 32 ∨ (Rect.block (s := S32) S32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32.size a ≤ S32.size a
  hwx1_8 : ∀ i : grid1.Coords, EltTy.bits .f32 = 32 ∨ (Rect.block (s := S32) S32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S6000x32.size a ≤ S150000x32.size a
  hwx1_9 : ∀ i : grid1.Coords, EltTy.bits .f32 = 32 ∨ (Rect.block (s := S150000x32) S6000x32.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x32.size a ≤ S256x32.size a
  hwx2_0 : ∀ i : grid2.Coords, EltTy.bits .f32 = 32 ∨ (Rect.block (s := S256x32) S256x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .bf16 = 32 ∨ (Rect.block (s := S32x32) S32x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x2.size a ≤ S32x2.size a
  hwx2_3 : ∀ i : grid2.Coords, EltTy.bits .bf16 = 32 ∨ (Rect.block (s := S32x2) S32x2.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x2.size a ≤ S256x2.size a
  hwx2_5 : ∀ i : grid2.Coords, EltTy.bits .f32 = 32 ∨ (Rect.block (s := S256x2) S256x2.size (cc2_transform_5 i) (hinb2_5 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S6000x64_S64x32_S6000x32_1_0_0_1_n_n : DotDims S6000x64 S64x32 S6000x32 where
  lhsContracting := [1]
  rhsContracting := [0]
  lhsNonContracting := [0]
  rhsNonContracting := [1]
  lhsBatch := []
  rhsBatch := []
  wf := dot_S6000x64_S64x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def scatter_S256x32_S150000x1_S150000x32_1_0_0_1 : ScatterDims S256x32 S150000x1 S150000x32 where
  updateWindowDims := [1]
  insertedWindowDims := [0]
  scatterDimsToOperandDims := [0]
  indexVectorDim := 1
  wf := scatter_S256x32_S150000x1_S150000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_v17) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S6000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S6000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v40) S256x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v41) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S32x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S256x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S150000x64 : Shape := ⟨2, ![150000, 64]⟩
abbrev S2x2400000 : Shape := ⟨2, ![2, 2400000]⟩
abbrev S150000 : Shape := ⟨1, ![150000]⟩
abbrev S64x32 : Shape := ⟨2, ![64, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x2400000 : Shape := ⟨2, ![1, 2400000]⟩
abbrev S2400000 : Shape := ⟨1, ![2400000]⟩
abbrev S_ : Shape := ⟨0, ![]⟩
abbrev S2400000x1 : Shape := ⟨2, ![2400000, 1]⟩
abbrev S2400000x64 : Shape := ⟨2, ![2400000, 64]⟩
abbrev S150000x32 : Shape := ⟨2, ![150000, 32]⟩
abbrev S1x32 : Shape := ⟨2, ![1, 32]⟩
abbrev S2400000x32 : Shape := ⟨2, ![2400000, 32]⟩
abbrev S256x32 : Shape := ⟨2, ![256, 32]⟩
abbrev S150000x1 : Shape := ⟨2, ![150000, 1]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 150
  | .vmem => 0
  | .smem => 0
  | _ => 0

abbrev hbmTy0_0 (i : Nat) : BufTy := match i % 128 with
  | 0 => ⟨S150000x64, .f32⟩
  | 1 => ⟨S2x2400000, .i32⟩
  | 2 => ⟨S150000, .i32⟩
  | 3 => ⟨S64x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32, .f32⟩
  | 16 => ⟨S32, .f32⟩
  | 17 => ⟨S32, .f32⟩
  | 18 => ⟨S32, .f32⟩
  | 19 => ⟨S32x32, .f32⟩
  | 20 => ⟨S32, .f32⟩
  | 21 => ⟨S32x2, .f32⟩
  | 22 => ⟨S2, .f32⟩
  | 23 => ⟨S1x2400000, .i32⟩
  | 24 => ⟨S2400000, .i32⟩
  | 25 => ⟨S1x2400000, .i32⟩
  | 26 => ⟨S2400000, .i32⟩
  | 27 => ⟨S_, .i32⟩
  | 28 => ⟨S2400000, .i32⟩
  | 29 => ⟨S2400000, .i1⟩
  | 30 => ⟨S_, .i32⟩
  | 31 => ⟨S2400000, .i32⟩
  | 32 => ⟨S2400000, .i32⟩
  | 33 => ⟨S2400000, .i32⟩
  | 34 => ⟨S2400000x1, .i32⟩
  | 35 => ⟨S2400000x64, .f32⟩
  | 36 => ⟨S_, .f32⟩
  | 37 => ⟨S150000x64, .f32⟩
  | 38 => ⟨S2400000x1, .i32⟩
  | 39 => ⟨S150000x64, .f32⟩
  | 40 => ⟨S150000x64, .f32⟩
  | 41 => ⟨S150000x32, .f32⟩
  | 42 => ⟨S1x32, .f32⟩
  | 43 => ⟨S150000x32, .f32⟩
  | 44 => ⟨S150000x32, .f32⟩
  | 45 => ⟨S_, .f32⟩
  | 46 => ⟨S150000x32, .f32⟩
  | 47 => ⟨S150000x32, .f32⟩
  | 48 => ⟨S150000x32, .f32⟩
  | 49 => ⟨S1x32, .f32⟩
  | 50 => ⟨S150000x32, .f32⟩
  | 51 => ⟨S150000x32, .f32⟩
  | 52 => ⟨S_, .f32⟩
  | 53 => ⟨S150000x32, .f32⟩
  | 54 => ⟨S150000x32, .f32⟩
  | 55 => ⟨S1x32, .f32⟩
  | 56 => ⟨S150000x32, .f32⟩
  | 57 => ⟨S150000x32, .f32⟩
  | 58 => ⟨S_, .f32⟩
  | 59 => ⟨S32, .f32⟩
  | 60 => ⟨S32, .f32⟩
  | 61 => ⟨S32, .f32⟩
  | 62 => ⟨S1x32, .f32⟩
  | 63 => ⟨S150000x32, .f32⟩
  | 64 => ⟨S150000x32, .f32⟩
  | 65 => ⟨S1x32, .f32⟩
  | 66 => ⟨S150000x32, .f32⟩
  | 67 => ⟨S150000x32, .f32⟩
  | 68 => ⟨S1x32, .f32⟩
  | 69 => ⟨S150000x32, .f32⟩
  | 70 => ⟨S150000x32, .f32⟩
  | 71 => ⟨S_, .f32⟩
  | 72 => ⟨S150000x32, .f32⟩
  | 73 => ⟨S150000x32, .f32⟩
  | 74 => ⟨S_, .i32⟩
  | 75 => ⟨S2400000, .i32⟩
  | 76 => ⟨S2400000, .i1⟩
  | 77 => ⟨S_, .i32⟩
  | 78 => ⟨S2400000, .i32⟩
  | 79 => ⟨S2400000, .i32⟩
  | 80 => ⟨S2400000, .i32⟩
  | 81 => ⟨S2400000x1, .i32⟩
  | 82 => ⟨S2400000x32, .f32⟩
  | 83 => ⟨S_, .f32⟩
  | 84 => ⟨S150000x32, .f32⟩
  | 85 => ⟨S2400000x1, .i32⟩
  | 86 => ⟨S150000x32, .f32⟩
  | 87 => ⟨S150000x32, .f32⟩
  | 88 => ⟨S150000x32, .f32⟩
  | 89 => ⟨S1x32, .f32⟩
  | 90 => ⟨S150000x32, .f32⟩
  | 91 => ⟨S150000x32, .f32⟩
  | 92 => ⟨S_, .f32⟩
  | 93 => ⟨S150000x32, .f32⟩
  | 94 => ⟨S150000x32, .f32⟩
  | 95 => ⟨S150000x32, .f32⟩
  | 96 => ⟨S1x32, .f32⟩
  | 97 => ⟨S150000x32, .f32⟩
  | 98 => ⟨S150000x32, .f32⟩
  | 99 => ⟨S_, .f32⟩
  | 100 => ⟨S150000x32, .f32⟩
  | 101 => ⟨S150000x32, .f32⟩
  | 102 => ⟨S1x32, .f32⟩
  | 103 => ⟨S150000x32, .f32⟩
  | 104 => ⟨S150000x32, .f32⟩
  | 105 => ⟨S_, .f32⟩
  | 106 => ⟨S32, .f32⟩
  | 107 => ⟨S32, .f32⟩
  | 108 => ⟨S32, .f32⟩
  | 109 => ⟨S1x32, .f32⟩
  | 110 => ⟨S150000x32, .f32⟩
  | 111 => ⟨S150000x32, .f32⟩
  | 112 => ⟨S1x32, .f32⟩
  | 113 => ⟨S150000x32, .f32⟩
  | 114 => ⟨S150000x32, .f32⟩
  | 115 => ⟨S1x32, .f32⟩
  | 116 => ⟨S150000x32, .f32⟩
  | 117 => ⟨S150000x32, .f32⟩
  | 118 => ⟨S_, .f32⟩
  | 119 => ⟨S150000x32, .f32⟩
  | 120 => ⟨S150000x32, .f32⟩
  | 121 => ⟨S_, .f32⟩
  | 122 => ⟨S256x32, .f32⟩
  | 123 => ⟨S150000x1, .i32⟩
  | 124 => ⟨S256x32, .f32⟩
  | 125 => ⟨S256x32, .f32⟩
  | 126 => ⟨S1x32, .f32⟩
  | 127 => ⟨S256x32, .f32⟩
  | _ => ⟨S150000x64, .f32⟩

abbrev hbmTy0_1 (i : Nat) : BufTy := match i % 128 with
  | 0 => ⟨S256x32, .f32⟩
  | 1 => ⟨S_, .f32⟩
  | 2 => ⟨S256x32, .f32⟩
  | 3 => ⟨S256x32, .f32⟩
  | 4 => ⟨S256x2, .f32⟩
  | 5 => ⟨S1x2, .f32⟩
  | 6 => ⟨S256x2, .f32⟩
  | 7 => ⟨S256x2, .f32⟩
  | 8 => ⟨S_, .f32⟩
  | 9 => ⟨S256, .f32⟩
  | 10 => ⟨S_, .f32⟩
  | 11 => ⟨S256, .f32⟩
  | 12 => ⟨S256, .f32⟩
  | 13 => ⟨S256x1, .f32⟩
  | 14 => ⟨S256x2, .f32⟩
  | 15 => ⟨S256x2, .f32⟩
  | 16 => ⟨S256x2, .f32⟩
  | 17 => ⟨S_, .f32⟩
  | 18 => ⟨S256, .f32⟩
  | 19 => ⟨S256x1, .f32⟩
  | 20 => ⟨S256x2, .f32⟩
  | 21 => ⟨S256x2, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_call2_cst : Ref sig .tc := ⟨.hbm, 71, rfl⟩
abbrev main_call2_v0 : Ref sig .tc := ⟨.hbm, 72, rfl⟩
abbrev main_v40 : Ref sig .tc := ⟨.hbm, 73, rfl⟩
abbrev main_c_2 : Ref sig .tc := ⟨.hbm, 74, rfl⟩
abbrev main_v41 : Ref sig .tc := ⟨.hbm, 75, rfl⟩
abbrev main_v42 : Ref sig .tc := ⟨.hbm, 76, rfl⟩
abbrev main_c_3 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_4 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call3_cst : Ref sig .tc := ⟨.hbm, 92, rfl⟩
abbrev main_call3_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call4_cst : Ref sig .tc := ⟨.hbm, 99, rfl⟩
abbrev main_call4_v0 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_5 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call5_cst : Ref sig .tc := ⟨.hbm, 118, rfl⟩
abbrev main_call5_v0 : Ref sig .tc := ⟨.hbm, 119, rfl⟩
abbrev main_v77 : Ref sig .tc := ⟨.hbm, 120, rfl⟩
abbrev main_cst_6 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call6_cst : Ref sig .tc := ⟨.hbm, 129, rfl⟩
abbrev main_call6_v0 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_7 : Ref sig .tc := ⟨.hbm, 136, rfl⟩
abbrev main_v90 : Ref sig .tc := ⟨.hbm, 137, rfl⟩
abbrev main_cst_8 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_9 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  slices_S2x2400000_S1x2400000_1_0 : S2x2400000.Slices ![1, 0] S1x2400000
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S_S150000x64 : S_.BroadcastsInDim S150000x64 (![] : Fin 0 → Fin S150000x64.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S_S150000x32 : S_.BroadcastsInDim S150000x32 (![] : Fin 0 → Fin S150000x32.rank)
  bcast_S_S32 : S_.BroadcastsInDim S32 (![] : Fin 0 → Fin S32.rank)
  bcast_S_S256x32 : S_.BroadcastsInDim S256x32 (![] : Fin 0 → Fin S256x32.rank)
  bcast_S150000_S150000x1_0 : S150000.BroadcastsInDim S150000x1 (![0] : Fin 1 → Fin S150000x1.rank)
  bcast_S1x32_S256x32_0_1 : S1x32.BroadcastsInDim S256x32 (![0, 1] : Fin 2 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x32_S150000x32_1_0_0_1_n_n_wf : DotDims.WF S150000x64 S64x32 S150000x32 [1] [0] [0] [1] [] []
  dot_S150000x32_S32x32_S150000x32_1_0_0_1_n_n_wf : DotDims.WF S150000x32 S32x32 S150000x32 [1] [0] [0] [1] [] []
  gather_S150000x32_S2400000x1_S2400000x32_1_0_n_n_0_1_132_wf : GatherDims.WF S150000x32 S2400000x1 S2400000x32 [1] [0] [] [0] [] 1 ![1, 32]
  scatter_S150000x32_S2400000x1_S2400000x32_1_0_0_1_wf : ScatterDims.WF S150000x32 S2400000x1 S2400000x32 [1] [0] [0] 1
  scatter_S256x32_S150000x1_S150000x32_1_0_0_1_wf : ScatterDims.WF S256x32 S150000x1 S150000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x32_S150000x32_1_0_0_1_n_n : DotDims S150000x64 S64x32 S150000x32 where
  lhsContracting := [1]
  rhsContracting := [0]
  lhsNonContracting := [0]
  rhsNonContracting := [1]
  lhsBatch := []
  rhsBatch := []
  wf := dot_S150000x64_S64x32_S150000x32_1_0_0_1_n_n_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def gather_S150000x32_S2400000x1_S2400000x32_1_0_n_n_0_1_132 : GatherDims S150000x32 S2400000x1 S2400000x32 where
  offsetDims := [1]
  collapsedSliceDims := [0]
  operandBatchingDims := []
  startIndicesBatchingDims := []
  startIndexMap := [0]
  indexVectorDim := 1
  sliceSizes := ![1, 32]
  wf := gather_S150000x32_S2400000x1_S2400000x32_1_0_n_n_0_1_132_wf
def scatter_S150000x32_S2400000x1_S2400000x32_1_0_0_1 : ScatterDims S150000x32 S2400000x1 S2400000x32 where
  updateWindowDims := [1]
  insertedWindowDims := [0]
  scatterDimsToOperandDims := [0]
  indexVectorDim := 1
  wf := scatter_S150000x32_S2400000x1_S2400000x32_1_0_0_1_wf
def scatter_S256x32_S150000x1_S150000x32_1_0_0_1 : ScatterDims S256x32 S150000x1 S150000x32 where
  updateWindowDims := [1]
  insertedWindowDims := [0]
  scatterDimsToOperandDims := [0]
  indexVectorDim := 1
  wf := scatter_S256x32_S150000x1_S150000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.KernelRun.lean ====
/-
  The idealized kernel's run with its result named. The network's output is the array the third region (the
  classification head) writes; at the last segment boundary every buffer outside a region's scope holds the boundary
  contents, so the result buffer holds what the head's write-back left there, and the argument arrays are as launched.
  The launch over the program's six segments (three stretches of host operations, three regions) is the one the
  frame of this program is proved with; here the final state is read at the result buffer as well.
-/
import proofs.«113044_j2869038153787_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents
    and the arguments unchanged. -/
theorem run : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.KernelIdeal.ValueRun

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.PerceptronRow.lean ====
/-
  One fused perceptron stage of the graph network, row by row, on the extended reals.

  For a node's feature row z (k entries) the stage computes, for each of the 32 output channels j,

    max( ((max(Σ_q max(Σ_p z_p·Wa(p,q) + ba_q, 0)·Wb(q,j) + bb_j, 0) − μ_j) · rsqrt(σ²_j + ε)) · γ_j + β_j , 0 )

  two dense layers with rectifiers, then a normalisation with running statistics, then a rectifier. Entry (p, j) of the
  result depends on row p of the input only. This file states that formula (`mlpAt`) and shows that the vector unit's
  arrangement of it over an [a, k] block — the two products into zero accumulators after a change of float format (the
  identity on extended reals), each bias, mean, scale and shift row laid along the a rows — reads, at (p, j), as `mlpAt`
  of row p. The float words 0 and ε are kept as words: both programs carry the same ones.
-/
import Idealize.ShloMosaic.Lib.ValueLayout
import Idealize.ShloMosaic.Lib.ValueIdx
import Idealize.ShloMosaic.Lib.Pipeline.Value
import Idealize.ShloMosaic.PureOps.Ideal.Laws
import proofs.«113044_j2869038153787_2_alg».proof.Proof.LibAffine
import proofs.«113044_j2869038153787_2_alg».proof.Proof.LibPlainDot
import proofs.«113044_j2869038153787_2_alg».proof.Proof.LibColumnRow

noncomputable section

namespace Cert.Gin

open Idealize.ShloMosaic Idealize.ShloMosaic.ValueIdx

/-- The float word of zero and the word of the normalisation's ε, read on the extended reals. -/
abbrev zeroW : EReal := Ideal.ofBits .f32 0x00000000#32
abbrev epsW : EReal := Ideal.ofBits .f32 0x3A83126F#32

/-- Channel j of the stage applied to the feature row z. -/
def mlpAt {k : ℕ} (z : Fin k → EReal) (wa : Fin k → Fin 32 → EReal) (ba : Fin 32 → EReal)
    (wb : Fin 32 → Fin 32 → EReal) (bb gam bet mu var : Fin 32 → EReal) (j : Fin 32) : EReal :=
  max ((max ((∑ q : Fin 32, max ((∑ p : Fin k, z p * wa p q) + ba q) zeroW * wb q j) + bb j) zeroW - mu j)
        * Ideal.rsqrt (var j + epsW) * gam j + bet j) zeroW

/-- A plain [a,k]×[k,n] product into a zero accumulator, at (p, j), is the sum over the contracted axis. -/
theorem coreDot {a k n : ℕ} {φ₁ φ₂ : FTy} (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (L : FVec Ideal ⟨2, ![a, k]⟩ φ₁) (R : FVec Ideal ⟨2, ![k, n]⟩ φ₂) (p : Fin a) (j : Fin n) :
    matmul D none L R (constant ⟨2, ![a, n]⟩ .f32 0x00000000#32) (ix2 p j) = ∑ q : Fin k, L (ix2 p q) * R (ix2 q j) :=
  Cert.LibAffine.coreDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) none L R p j

/-- A length-n vector seen as a [1,n] row and laid along a rows reads, at (p, j), the vector's entry j. -/
theorem rowAlong {a n : ℕ} (v : FVec Ideal ⟨1, ![n]⟩ .f32) (hrow : (⟨1, ![n]⟩ : Shape).ShapeCasts ⟨2, ![1, n]⟩)
    (hbr : (⟨2, ![1, n]⟩ : Shape).Broadcasts ⟨2, ![a, n]⟩) (p : Fin a) (j : Fin n) :
    broadcastTo ⟨2, ![a, n]⟩ (shapeCast ⟨2, ![1, n]⟩ v hrow) hbr (ix2 p j) = v (ix1 j) := by
  rw [broadcastTo_1b_ab_apply, shapeCast_a_1a_apply]

/-- The vector unit's arrangement of the stage over an [a, k] block, read at (p, j). -/
theorem coreMlp_ix2 {a k : ℕ}
    (D1 : DotDims ⟨2, ![a, k]⟩ ⟨2, ![k, 32]⟩ ⟨2, ![a, 32]⟩) (D2 : DotDims ⟨2, ![a, 32]⟩ ⟨2, ![32, 32]⟩ ⟨2, ![a, 32]⟩)
    (h1lc : D1.lhsContracting = [1]) (h1lb : D1.lhsBatch = []) (h1ln : D1.lhsNonContracting = [0])
    (h1rc : D1.rhsContracting = [0]) (h1rb : D1.rhsBatch = []) (h1rn : D1.rhsNonContracting = [1])
    (h2lc : D2.lhsContracting = [1]) (h2lb : D2.lhsBatch = []) (h2ln : D2.lhsNonContracting = [0])
    (h2rc : D2.rhsContracting = [0]) (h2rb : D2.rhsBatch = []) (h2rn : D2.rhsNonContracting = [1])
    (hcz : (⟨2, ![a, k]⟩ : Shape).ShapeCasts ⟨2, ![a, k]⟩) (hcw1 : (⟨2, ![k, 32]⟩ : Shape).ShapeCasts ⟨2, ![k, 32]⟩)
    (hcw2 : (⟨2, ![32, 32]⟩ : Shape).ShapeCasts ⟨2, ![32, 32]⟩)
    (hrow : (⟨1, ![32]⟩ : Shape).ShapeCasts ⟨2, ![1, 32]⟩) (hbr : (⟨2, ![1, 32]⟩ : Shape).Broadcasts ⟨2, ![a, 32]⟩)
    (hbits : FTy.bf16.bits < FTy.f32.bits)
    (v0 : FVec Ideal ⟨2, ![a, k]⟩ .f32) (v3 : FVec Ideal ⟨2, ![k, 32]⟩ .bf16) (v6 : FVec Ideal ⟨1, ![32]⟩ .f32)
    (v13 : FVec Ideal ⟨2, ![32, 32]⟩ .bf16) (v16 v22 v26 v33 v37 : FVec Ideal ⟨1, ![32]⟩ .f32) (p : Fin a) (j : Fin 32) :
    maximumf (addf (mulf (mulf (subf (maximumf (addf (matmul D2 none (truncf .bf16 (maximumf (addf
        (matmul D1 none (truncf .bf16 (shapeCast ⟨2, ![a, k]⟩ v0 hcz) hbits) (shapeCast ⟨2, ![k, 32]⟩ v3 hcw1) (constant ⟨2, ![a, 32]⟩ .f32 0x00000000#32))
        (broadcastTo ⟨2, ![a, 32]⟩ (shapeCast ⟨2, ![1, 32]⟩ v6 hrow) hbr))
        (broadcast ⟨2, ![a, 32]⟩ (Scalar.ofBits .f32 0x00000000#32))) hbits) (shapeCast ⟨2, ![32, 32]⟩ v13 hcw2) (constant ⟨2, ![a, 32]⟩ .f32 0x00000000#32))
        (broadcastTo ⟨2, ![a, 32]⟩ (shapeCast ⟨2, ![1, 32]⟩ v16 hrow) hbr))
        (broadcast ⟨2, ![a, 32]⟩ (Scalar.ofBits .f32 0x00000000#32)))
        (broadcastTo ⟨2, ![a, 32]⟩ (shapeCast ⟨2, ![1, 32]⟩ v26 hrow) hbr))
        (broadcastTo ⟨2, ![a, 32]⟩ (shapeCast ⟨2, ![1, 32]⟩ (rsqrt (addf v22 (broadcast ⟨1, ![32]⟩ (Scalar.ofBits .f32 0x3A83126F#32)))) hrow) hbr))
        (broadcastTo ⟨2, ![a, 32]⟩ (shapeCast ⟨2, ![1, 32]⟩ v33 hrow) hbr))
        (broadcastTo ⟨2, ![a, 32]⟩ (shapeCast ⟨2, ![1, 32]⟩ v37 hrow) hbr))
        (broadcast ⟨2, ![a, 32]⟩ (Scalar.ofBits .f32 0x00000000#32)) (ix2 p j)
      = mlpAt (fun q => v0 (ix2 p q)) (fun q c => v3 (ix2 q c)) (fun c => v6 (ix1 c)) (fun q c => v13 (ix2 q c))
          (fun c => v16 (ix1 c)) (fun c => v33 (ix1 c)) (fun c => v37 (ix1 c)) (fun c => v26 (ix1 c)) (fun c => v22 (ix1 c)) j := by
  simp only [maximumf_apply, addf_apply, mulf_apply, subf_apply, broadcast_apply, rowAlong]
  rw [coreDot D2 h2lc h2lb h2ln h2rc h2rb h2rn]
  simp only [truncf_apply, maximumf_apply, addf_apply, broadcast_apply, rowAlong, shapeCast_self,
    coreDot D1 h1lc h1lb h1ln h1rc h1rb h1rn]
  rfl

/-- Class c's logit of the head applied to the pooled feature row P: a rectified dense layer, then a dense layer. -/
def logitsAt (P : Fin 32 → EReal) (w1 : Fin 32 → Fin 32 → EReal) (b1 : Fin 32 → EReal) (w2 : Fin 32 → Fin 2 → EReal)
    (b2 : Fin 2 → EReal) (c : Fin 2) : EReal :=
  (∑ q : Fin 32, max ((∑ p : Fin 32, P p * w1 p q) + b1 q) zeroW * w2 q c) + b2 c

/-- The vector unit's arrangement of the logits over an [a, 32] block of pooled rows, read at (p, c). -/
theorem coreLogits_ix2 {a : ℕ}
    (D1 : DotDims ⟨2, ![a, 32]⟩ ⟨2, ![32, 32]⟩ ⟨2, ![a, 32]⟩) (D2 : DotDims ⟨2, ![a, 32]⟩ ⟨2, ![32, 2]⟩ ⟨2, ![a, 2]⟩)
    (h1lc : D1.lhsContracting = [1]) (h1lb : D1.lhsBatch = []) (h1ln : D1.lhsNonContracting = [0])
    (h1rc : D1.rhsContracting = [0]) (h1rb : D1.rhsBatch = []) (h1rn : D1.rhsNonContracting = [1])
    (h2lc : D2.lhsContracting = [1]) (h2lb : D2.lhsBatch = []) (h2ln : D2.lhsNonContracting = [0])
    (h2rc : D2.rhsContracting = [0]) (h2rb : D2.rhsBatch = []) (h2rn : D2.rhsNonContracting = [1])
    (hcz : (⟨2, ![a, 32]⟩ : Shape).ShapeCasts ⟨2, ![a, 32]⟩) (hcw1 : (⟨2, ![32, 32]⟩ : Shape).ShapeCasts ⟨2, ![32, 32]⟩)
    (hcw2 : (⟨2, ![32, 2]⟩ : Shape).ShapeCasts ⟨2, ![32, 2]⟩)
    (hrow : (⟨1, ![32]⟩ : Shape).ShapeCasts ⟨2, ![1, 32]⟩) (hbr : (⟨2, ![1, 32]⟩ : Shape).Broadcasts ⟨2, ![a, 32]⟩)
    (hrow2 : (⟨1, ![2]⟩ : Shape).ShapeCasts ⟨2, ![1, 2]⟩) (hbr2 : (⟨2, ![1, 2]⟩ : Shape).Broadcasts ⟨2, ![a, 2]⟩)
    (hbits : FTy.bf16.bits < FTy.f32.bits)
    (v0 : FVec Ideal ⟨2, ![a, 32]⟩ .f32) (v3 : FVec Ideal ⟨2, ![32, 32]⟩ .bf16) (v6 : FVec Ideal ⟨1, ![32]⟩ .f32)
    (v13 : FVec Ideal ⟨2, ![32, 2]⟩ .bf16) (v16 : FVec Ideal ⟨1, ![2]⟩ .f32) (p : Fin a) (c : Fin 2) :
    addf (matmul D2 none (truncf .bf16 (maximumf (addf
        (matmul D1 none (truncf .bf16 (shapeCast ⟨2, ![a, 32]⟩ v0 hcz) hbits) (shapeCast ⟨2, ![32, 32]⟩ v3 hcw1) (constant ⟨2, ![a, 32]⟩ .f32 0x00000000#32))
        (broadcastTo ⟨2, ![a, 32]⟩ (shapeCast ⟨2, ![1, 32]⟩ v6 hrow) hbr))
        (broadcast ⟨2, ![a, 32]⟩ (Scalar.ofBits .f32 0x00000000#32))) hbits) (shapeCast ⟨2, ![32, 2]⟩ v13 hcw2) (constant ⟨2, ![a, 2]⟩ .f32 0x00000000#32))
        (broadcastTo ⟨2, ![a, 2]⟩ (shapeCast ⟨2, ![1, 2]⟩ v16 hrow2) hbr2) (ix2 p c)
      = logitsAt (fun q => v0 (ix2 p q)) (fun q r => v3 (ix2 q r)) (fun r => v6 (ix1 r)) (fun q r => v13 (ix2 q r))
          (fun r => v16 (ix1 r)) c := by
  simp only [addf_apply, rowAlong]
  rw [coreDot D2 h2lc h2lb h2ln h2rc h2rb h2rn]
  simp only [truncf_apply, maximumf_apply, addf_apply, broadcast_apply, rowAlong, shapeCast_self,
    coreDot D1 h1lc h1lb h1ln h1rc h1rb h1rn]
  rfl

/-- The host's plain [a,k]×[k,n] product, at (p, j), is the sum over the contracted axis. -/
theorem hostDot {a k n : ℕ} {φ₁ φ₂ : FTy} (D : DotDims ⟨2, ![a, k]⟩ ⟨2, ![k, n]⟩ ⟨2, ![a, n]⟩)
    (hlc : D.lhsContracting = [1]) (hlb : D.lhsBatch = []) (hln : D.lhsNonContracting = [0])
    (hrc : D.rhsContracting = [0]) (hrb : D.rhsBatch = []) (hrn : D.rhsNonContracting = [1])
    (L : FVec Ideal ⟨2, ![a, k]⟩ φ₁) (R : FVec Ideal ⟨2, ![k, n]⟩ φ₂) (p : Fin a) (j : Fin n) :
    Host.dotGeneral D none L R (ix2 p j) = ∑ q : Fin k, L (ix2 p q) * R (ix2 q j) :=
  Cert.LibAffine.hostDot_ix2 D (Cert.LibPlainDot.contr_rank D hlc) (Cert.LibPlainDot.contr_size D hlc)
    (Cert.LibPlainDot.lhs_row D hlb hln) (Cert.LibPlainDot.lhs_col D hlc) (Cert.LibPlainDot.rhs_row D hlc hrc)
    (Cert.LibPlainDot.rhs_col D hlb hln hrb hrn) none L R p j

/-- A length-n vector broadcast to a [1,n] row and then along a rows reads, at (p, j), the vector's entry j. -/
theorem rowAlongHost {a n : ℕ} (v : FVec Ideal ⟨1, ![n]⟩ .f32) (hd1 : (⟨1, ![n]⟩ : Shape).BroadcastsInDim ⟨2, ![1, n]⟩ ![1])
    (hd : (⟨2, ![1, n]⟩ : Shape).BroadcastsInDim ⟨2, ![a, n]⟩ ![0, 1]) (p : Fin a) (j : Fin n) :
    broadcastInDim ⟨2, ![a, n]⟩ ![0, 1] hd (broadcastInDim ⟨2, ![1, n]⟩ ![1] hd1 v) (ix2 p j) = v (ix1 j) := by
  rw [Cert.LibAffine.broadcastInDim_1n_an_apply, Cert.LibColumnRow.broadcastInDim_n_1n_apply]

/-- A scalar float word broadcast over any shape reads, everywhere, the word's value. -/
theorem wordAlong {t : Shape} (hz : (⟨0, ![]⟩ : Shape).BroadcastsInDim t ![]) (w : BitVec FTy.f32.bits) (i : t.Idx) :
    broadcastInDim t ![] hz (constant (F := Ideal) ⟨0, ![]⟩ .f32 w) i = Ideal.ofBits .f32 w := rfl

/-- The host's arrangement of the stage over an [a, k] array, read at (p, j). -/
theorem hostMlp_ix2 {a k : ℕ}
    (D1 : DotDims ⟨2, ![a, k]⟩ ⟨2, ![k, 32]⟩ ⟨2, ![a, 32]⟩) (D2 : DotDims ⟨2, ![a, 32]⟩ ⟨2, ![32, 32]⟩ ⟨2, ![a, 32]⟩)
    (h1lc : D1.lhsContracting = [1]) (h1lb : D1.lhsBatch = []) (h1ln : D1.lhsNonContracting = [0])
    (h1rc : D1.rhsContracting = [0]) (h1rb : D1.rhsBatch = []) (h1rn : D1.rhsNonContracting = [1])
    (h2lc : D2.lhsContracting = [1]) (h2lb : D2.lhsBatch = []) (h2ln : D2.lhsNonContracting = [0])
    (h2rc : D2.rhsContracting = [0]) (h2rb : D2.rhsBatch = []) (h2rn : D2.rhsNonContracting = [1])
    (hd1 : (⟨1, ![32]⟩ : Shape).BroadcastsInDim ⟨2, ![1, 32]⟩ ![1]) (hd : (⟨2, ![1, 32]⟩ : Shape).BroadcastsInDim ⟨2, ![a, 32]⟩ ![0, 1])
    (hz : (⟨0, ![]⟩ : Shape).BroadcastsInDim ⟨2, ![a, 32]⟩ ![]) (hz32 : (⟨0, ![]⟩ : Shape).BroadcastsInDim ⟨1, ![32]⟩ ![])
    (Z : FVec Ideal ⟨2, ![a, k]⟩ .f32) (w1 : FVec Ideal ⟨2, ![k, 32]⟩ .f32) (b1 : FVec Ideal ⟨1, ![32]⟩ .f32)
    (w2 : FVec Ideal ⟨2, ![32, 32]⟩ .f32) (b2 g be mu var : FVec Ideal ⟨1, ![32]⟩ .f32) (p : Fin a) (j : Fin 32) :
    maximumf (addf (mulf (mulf (subf (maximumf (addf (Host.dotGeneral D2 none (maximumf (addf (Host.dotGeneral D1 none Z w1)
        (broadcastInDim ⟨2, ![a, 32]⟩ ![0, 1] hd (broadcastInDim ⟨2, ![1, 32]⟩ ![1] hd1 b1)))
        (broadcastInDim ⟨2, ![a, 32]⟩ ![] hz (constant (F := Ideal) ⟨0, ![]⟩ .f32 0x00000000#32))) w2)
        (broadcastInDim ⟨2, ![a, 32]⟩ ![0, 1] hd (broadcastInDim ⟨2, ![1, 32]⟩ ![1] hd1 b2)))
        (broadcastInDim ⟨2, ![a, 32]⟩ ![] hz (constant (F := Ideal) ⟨0, ![]⟩ .f32 0x00000000#32)))
        (broadcastInDim ⟨2, ![a, 32]⟩ ![0, 1] hd (broadcastInDim ⟨2, ![1, 32]⟩ ![1] hd1 mu)))
        (broadcastInDim ⟨2, ![a, 32]⟩ ![0, 1] hd (broadcastInDim ⟨2, ![1, 32]⟩ ![1] hd1
          (Host.rsqrt (addf var (broadcastInDim ⟨1, ![32]⟩ ![] hz32 (constant (F := Ideal) ⟨0, ![]⟩ .f32 0x3A83126F#32)))))))
        (broadcastInDim ⟨2, ![a, 32]⟩ ![0, 1] hd (broadcastInDim ⟨2, ![1, 32]⟩ ![1] hd1 g)))
        (broadcastInDim ⟨2, ![a, 32]⟩ ![0, 1] hd (broadcastInDim ⟨2, ![1, 32]⟩ ![1] hd1 be)))
        (broadcastInDim ⟨2, ![a, 32]⟩ ![] hz (constant (F := Ideal) ⟨0, ![]⟩ .f32 0x00000000#32)) (ix2 p j)
      = mlpAt (fun q => Z (ix2 p q)) (fun q s => w1 (ix2 q s)) (fun s => b1 (ix1 s)) (fun q s => w2 (ix2 q s))
          (fun s => b2 (ix1 s)) (fun s => g (ix1 s)) (fun s => be (ix1 s)) (fun s => mu (ix1 s)) (fun s => var (ix1 s)) j := by
  have row : ∀ (v : FVec Ideal ⟨1, ![32]⟩ .f32) (q : Fin 32),
      broadcastInDim ⟨2, ![a, 32]⟩ ![0, 1] hd (broadcastInDim ⟨2, ![1, 32]⟩ ![1] hd1 v) (ix2 p q) = v (ix1 q) :=
    fun v q => rowAlongHost v hd1 hd p q
  generalize hB1 : broadcastInDim ⟨2, ![a, 32]⟩ ![0, 1] hd (broadcastInDim ⟨2, ![1, 32]⟩ ![1] hd1 b1) = B1
  generalize hB2 : broadcastInDim ⟨2, ![a, 32]⟩ ![0, 1] hd (broadcastInDim ⟨2, ![1, 32]⟩ ![1] hd1 b2) = B2
  generalize hBm : broadcastInDim ⟨2, ![a, 32]⟩ ![0, 1] hd (broadcastInDim ⟨2, ![1, 32]⟩ ![1] hd1 mu) = Bm
  generalize hBg : broadcastInDim ⟨2, ![a, 32]⟩ ![0, 1] hd (broadcastInDim ⟨2, ![1, 32]⟩ ![1] hd1 g) = Bg
  generalize hBe : broadcastInDim ⟨2, ![a, 32]⟩ ![0, 1] hd (broadcastInDim ⟨2, ![1, 32]⟩ ![1] hd1 be) = Be
  generalize hBr : broadcastInDim ⟨2, ![a, 32]⟩ ![0, 1] hd (broadcastInDim ⟨2, ![1, 32]⟩ ![1] hd1
      (Host.rsqrt (addf var (broadcastInDim ⟨1, ![32]⟩ ![] hz32 (constant (F := Ideal) ⟨0, ![]⟩ .f32 0x3A83126F#32))))) = Br
  generalize hZ0 : broadcastInDim ⟨2, ![a, 32]⟩ ![] hz (constant (F := Ideal) ⟨0, ![]⟩ .f32 0x00000000#32) = Z0
  have e1 : ∀ q, B1 (ix2 p q) = b1 (ix1 q) := fun q => by rw [← hB1]; exact row b1 q
  have e2 : ∀ q, B2 (ix2 p q) = b2 (ix1 q) := fun q => by rw [← hB2]; exact row b2 q
  have em : ∀ q, Bm (ix2 p q) = mu (ix1 q) := fun q => by rw [← hBm]; exact row mu q
  have eg : ∀ q, Bg (ix2 p q) = g (ix1 q) := fun q => by rw [← hBg]; exact row g q
  have ee : ∀ q, Be (ix2 p q) = be (ix1 q) := fun q => by rw [← hBe]; exact row be q
  have er : ∀ q, Br (ix2 p q) = Ideal.rsqrt (var (ix1 q) + epsW) := fun q => by rw [← hBr]; exact row _ q
  have ez : ∀ i, Z0 i = zeroW := fun i => by rw [← hZ0]; rfl
  simp only [maximumf_apply, addf_apply, mulf_apply, subf_apply, e2, em, eg, ee, er, ez]
  rw [hostDot D2 h2lc h2lb h2ln h2rc h2rb h2rn]
  simp only [maximumf_apply, addf_apply, e1, ez, hostDot D1 h1lc h1lb h1ln h1rc h1rb h1rn]
  rfl

/-- The host's arrangement of the logits over an [a, 32] array of pooled rows, read at (p, c). -/
theorem hostLogits_ix2 {a : ℕ}
    (D1 : DotDims ⟨2, ![a, 32]⟩ ⟨2, ![32, 32]⟩ ⟨2, ![a, 32]⟩) (D2 : DotDims ⟨2, ![a, 32]⟩ ⟨2, ![32, 2]⟩ ⟨2, ![a, 2]⟩)
    (h1lc : D1.lhsContracting = [1]) (h1lb : D1.lhsBatch = []) (h1ln : D1.lhsNonContracting = [0])
    (h1rc : D1.rhsContracting = [0]) (h1rb : D1.rhsBatch = []) (h1rn : D1.rhsNonContracting = [1])
    (h2lc : D2.lhsContracting = [1]) (h2lb : D2.lhsBatch = []) (h2ln : D2.lhsNonContracting = [0])
    (h2rc : D2.rhsContracting = [0]) (h2rb : D2.rhsBatch = []) (h2rn : D2.rhsNonContracting = [1])
    (hd1 : (⟨1, ![32]⟩ : Shape).BroadcastsInDim ⟨2, ![1, 32]⟩ ![1]) (hd : (⟨2, ![1, 32]⟩ : Shape).BroadcastsInDim ⟨2, ![a, 32]⟩ ![0, 1])
    (hd1' : (⟨1, ![2]⟩ : Shape).BroadcastsInDim ⟨2, ![1, 2]⟩ ![1]) (hd' : (⟨2, ![1, 2]⟩ : Shape).BroadcastsInDim ⟨2, ![a, 2]⟩ ![0, 1])
    (hz : (⟨0, ![]⟩ : Shape).BroadcastsInDim ⟨2, ![a, 32]⟩ ![])
    (P : FVec Ideal ⟨2, ![a, 32]⟩ .f32) (w1 : FVec Ideal ⟨2, ![32, 32]⟩ .f32) (b1 : FVec Ideal ⟨1, ![32]⟩ .f32)
    (w2 : FVec Ideal ⟨2, ![32, 2]⟩ .f32) (b2 : FVec Ideal ⟨1, ![2]⟩ .f32) (p : Fin a) (c : Fin 2) :
    addf (Host.dotGeneral D2 none (maximumf (addf (Host.dotGeneral D1 none P w1)
        (broadcastInDim ⟨2, ![a, 32]⟩ ![0, 1] hd (broadcastInDim ⟨2, ![1, 32]⟩ ![1] hd1 b1)))
        (broadcastInDim ⟨2, ![a, 32]⟩ ![] hz (constant (F := Ideal) ⟨0, ![]⟩ .f32 0x00000000#32))) w2)
        (broadcastInDim ⟨2, ![a, 2]⟩ ![0, 1] hd' (broadcastInDim ⟨2, ![1, 2]⟩ ![1] hd1' b2)) (ix2 p c)
      = logitsAt (fun q => P (ix2 p q)) (fun q r => w1 (ix2 q r)) (fun r => b1 (ix1 r)) (fun q r => w2 (ix2 q r))
          (fun r => b2 (ix1 r)) c := by
  generalize hB1 : broadcastInDim ⟨2, ![a, 32]⟩ ![0, 1] hd (broadcastInDim ⟨2, ![1, 32]⟩ ![1] hd1 b1) = B1
  generalize hB2 : broadcastInDim ⟨2, ![a, 2]⟩ ![0, 1] hd' (broadcastInDim ⟨2, ![1, 2]⟩ ![1] hd1' b2) = B2
  generalize hZ0 : broadcastInDim ⟨2, ![a, 32]⟩ ![] hz (constant (F := Ideal) ⟨0, ![]⟩ .f32 0x00000000#32) = Z0
  have e1 : ∀ q, B1 (ix2 p q) = b1 (ix1 q) := fun q => by rw [← hB1]; exact rowAlongHost b1 hd1 hd p q
  have e2 : ∀ q, B2 (ix2 p q) = b2 (ix1 q) := fun q => by rw [← hB2]; exact rowAlongHost b2 hd1' hd' p q
  have ez : ∀ i, Z0 i = zeroW := fun i => by rw [← hZ0]; rfl
  simp only [addf_apply, e2]
  rw [hostDot D2 h2lc h2lb h2ln h2rc h2rb h2rn]
  simp only [maximumf_apply, addf_apply, e1, ez, hostDot D1 h1lc h1lb h1ln h1rc h1rb h1rn]
  rfl

/-- The stage over a whole array of node features: at (n, j), channel j of the stage applied to row n. -/
def perceptron {k : ℕ} (Z : (⟨2, ![150000, k]⟩ : Shape).Idx → EReal) (wa : (⟨2, ![k, 32]⟩ : Shape).Idx → EReal)
    (ba : (⟨1, ![32]⟩ : Shape).Idx → EReal) (wb : (⟨2, ![32, 32]⟩ : Shape).Idx → EReal)
    (bb gam bet mu var : (⟨1, ![32]⟩ : Shape).Idx → EReal) : (⟨2, ![150000, 32]⟩ : Shape).Idx → EReal := fun i =>
  mlpAt (fun q => Z (ix2 (i 0) q)) (fun q s => wa (ix2 q s)) (fun s => ba (ix1 s)) (fun q s => wb (ix2 q s))
    (fun s => bb (ix1 s)) (fun s => gam (ix1 s)) (fun s => bet (ix1 s)) (fun s => mu (ix1 s)) (fun s => var (ix1 s)) (i 1)

/-- The logits of every pooled row. -/
def logitsArr (P : (⟨2, ![256, 32]⟩ : Shape).Idx → EReal) (w1 : (⟨2, ![32, 32]⟩ : Shape).Idx → EReal)
    (b1 : (⟨1, ![32]⟩ : Shape).Idx → EReal) (w2 : (⟨2, ![32, 2]⟩ : Shape).Idx → EReal) (b2 : (⟨1, ![2]⟩ : Shape).Idx → EReal) :
    (⟨2, ![256, 2]⟩ : Shape).Idx → EReal := fun x =>
  logitsAt (fun q => P (ix2 (x 0) q)) (fun q s => w1 (ix2 q s)) (fun s => b1 (ix1 s)) (fun q s => w2 (ix2 q s))
    (fun s => b2 (ix1 s)) (x 1)

end Cert.Gin

end
-- ==== Proof.Stage0.lean ====
/-
  The first perceptron stage as one function of the arrays it finds. The region runs over 25 grid points; at point t
  it fetches rows 6000·t … 6000·t + 5999 of the aggregated features (all 64 columns) and the whole of every weight, bias
  and statistics array, and writes back rows 6000·t … 6000·t + 5999 of the result (all 32 columns). Row r of the block
  written at point t is `mlpAt` of row r of the block read at point t, that is of row 6000·t + r of the features; the 25
  blocks tile the 150000 rows, so the result array is, at (n, j), `mlpAt` of the features' row n: entry (n, j) depends on
  row n only.
-/
import proofs.«113044_j2869038153787_2_alg».proof.Proof.Gen.KernelIdeal.Frame
import proofs.«113044_j2869038153787_2_alg».proof.Proof.PerceptronRow

set_option maxRecDepth 16384

noncomputable section

namespace Cert.KernelIdeal.Stage0

open Cert.KernelIdeal Cert.KernelIdeal.Gen Cert.Gin
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The stage's result: at (n, j), channel j of the perceptron applied to row n of the aggregated features. -/
def stage (c : Dev nD) : S150000x32.Idx → EReal := fun i =>
  mlpAt (fun q => V c main_v17 (ix2 (i 0) q)) (fun q s => V c main_v18 (ix2 q s)) (fun s => V c main_arg4 (ix1 s))
    (fun q s => V c main_v19 (ix2 q s)) (fun s => V c main_arg6 (ix1 s)) (fun s => V c main_arg7 (ix1 s))
    (fun s => V c main_arg8 (ix1 s)) (fun s => V c main_arg9 (ix1 s)) (fun s => V c main_arg10 (ix1 s)) (i 1)

/-- What the body leaves in the output block, at an index, from the blocks it loaded. -/
theorem out_apply (x0 : Vec Ideal S6000x64 .f32) (x1 : Vec Ideal S64x32 .bf16) (x2 : Vec Ideal S32 .f32) (x3 : Vec Ideal S32x32 .bf16)
    (x4 x5 x6 x7 x8 : Vec Ideal S32 .f32) (y : S6000x32.Idx) :
    out0_9 x0 x1 x2 x3 x4 x5 x6 x7 x8 y
      = mlpAt (fun q => x0 (ix2 (y 0) q)) (fun q s => x1 (ix2 q s)) (fun s => x2 (ix1 s)) (fun q s => x3 (ix2 q s))
          (fun s => x4 (ix1 s)) (fun s => x5 (ix1 s)) (fun s => x6 (ix1 s)) (fun s => x7 (ix1 s)) (fun s => x8 (ix1 s)) (y 1) := by
  obtain ⟨p, j, rfl⟩ : ∃ (p : Fin 6000) (j : Fin 32), y = ix2 p j := ⟨y 0, y 1, eq_ix2 y⟩
  unfold out0_9
  rw [View.canon_unit_zero off2]
  simp only [View.ld_unit_zero (S := S6000x64) off2, View.ld_unit_zero (S := S64x32) off2, View.ld_unit_zero (S := S32x32) off2,
    View.ld_unit_zero (S := S32) off1]
  exact coreMlp_ix2 dot_S6000x64_S64x32_S6000x32_1_0_0_1_n_n dot_S6000x32_S32x32_S6000x32_1_0_0_1_n_n
    rfl rfl rfl rfl rfl rfl rfl rfl rfl rfl rfl rfl _ _ _ _ _ _ x0 x1 x2 x3 x4 x8 x7 x5 x6 p j

/-- The printed index maps over the grid: the feature window moves with the output window along the rows, and every
    other block index is 0. -/
theorem idx_facts : ∀ t : Fin cfg0.N, win0_0.index t (0 : Fin 2) = win0_9.index t (0 : Fin 2)
    ∧ win0_0.index t (1 : Fin 2) = 0 ∧ win0_9.index t (1 : Fin 2) = 0 ∧ win0_9.index t (0 : Fin 2) ≤ 24
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 1) = 0 ∧ win0_6.index t (0 : Fin 1) = 0 ∧ win0_7.index t (0 : Fin 1) = 0
    ∧ win0_8.index t (0 : Fin 1) = 0 :=
  (by decide +kernel : ∀ t : Fin grid0.N, _)

/-- Every block of rows is some point's. -/
theorem idx_onto : ∀ q0 : Fin 25, ∃ t : Fin cfg0.N, win0_9.index t = ![q0.val, 0] :=
  (by decide +kernel : ∀ q0 : Fin 25, ∃ t : Fin grid0.N, win0_9.index t = ![q0.val, 0])

/-- A window whose block index is 0 on both axes and whose block is the whole [a, b] array reads the array itself. -/
theorem blk_wa (c : Dev nD) (t : Fin cfg0.N) : iblk0 V c 1 t = V c main_v18 := by
  obtain ⟨-, -, -, -, e0, e1, -⟩ := idx_facts t
  funext y
  show V c main_v18 (((cfg0.win 1).blk t).view.emb y) = V c main_v18 y
  refine congrArg (V c main_v18) (funext fun a => Fin.ext ?_)
  match a with
  | ⟨0, _⟩ => show win0_1.index t (0 : Fin 2) * 64 + 1 * (y 0).val = (y 0).val; omega
  | ⟨1, _⟩ => show win0_1.index t (1 : Fin 2) * 32 + 1 * (y 1).val = (y 1).val; omega
theorem blk_wb (c : Dev nD) (t : Fin cfg0.N) : iblk0 V c 3 t = V c main_v19 := by
  obtain ⟨-, -, -, -, -, -, -, e0, e1, -⟩ := idx_facts t
  funext y
  show V c main_v19 (((cfg0.win 3).blk t).view.emb y) = V c main_v19 y
  refine congrArg (V c main_v19) (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem blk_2 (c : Dev nD) (t : Fin cfg0.N) : iblk0 V c 2 t = V c main_arg4 := by
  have e0 : win0_2.index t (0 : Fin 1) = 0 := by
    obtain ⟨-, -, -, -, -, -, e, -⟩ := idx_facts t
    exact e
  funext y
  show V c main_arg4 (((cfg0.win 2).blk t).view.emb y) = V c main_arg4 y
  refine congrArg (V c main_arg4) (funext fun a => Fin.ext ?_)
  match a with
  | ⟨0, _⟩ => show win0_2.index t (0 : Fin 1) * 32 + 1 * (y 0).val = (y 0).val; omega
theorem blk_4 (c : Dev nD) (t : Fin cfg0.N) : iblk0 V c 4 t = V c main_arg6 := by
  have e0 : win0_4.index t (0 : Fin 1) = 0 := by
    obtain ⟨-, -, -, -, -, -, -, -, -, e, -⟩ := idx_facts t
    exact e
  funext y
  show V c main_arg6 (((cfg0.win 4).blk t).view.emb y) = V c main_arg6 y
  refine congrArg (V c main_arg6) (funext fun a => Fin.ext ?_)
  match a with
  | ⟨0, _⟩ => show win0_4.index t (0 : Fin 1) * 32 + 1 * (y 0).val = (y 0).val; omega
theorem blk_5 (c : Dev nD) (t : Fin cfg0.N) : iblk0 V c 5 t = V c main_arg7 := by
  have e0 : win0_5.index t (0 : Fin 1) = 0 := by
    obtain ⟨-, -, -, -, -, -, -, -, -, -, e, -⟩ := idx_facts t
    exact e
  funext y
  show V c main_arg7 (((cfg0.win 5).blk t).view.emb y) = V c main_arg7 y
  refine congrArg (V c main_arg7) (funext fun a => Fin.ext ?_)
  match a with
  | ⟨0, _⟩ => show win0_5.index t (0 : Fin 1) * 32 + 1 * (y 0).val = (y 0).val; omega
theorem blk_6 (c : Dev nD) (t : Fin cfg0.N) : iblk0 V c 6 t = V c main_arg8 := by
  have e0 : win0_6.index t (0 : Fin 1) = 0 := by
    obtain ⟨-, -, -, -, -, -, -, -, -, -, -, e, -⟩ := idx_facts t
    exact e
  funext y
  show V c main_arg8 (((cfg0.win 6).blk t).view.emb y) = V c main_arg8 y
  refine congrArg (V c main_arg8) (funext fun a => Fin.ext ?_)
  match a with
  | ⟨0, _⟩ => show win0_6.index t (0 : Fin 1) * 32 + 1 * (y 0).val = (y 0).val; omega
theorem blk_7 (c : Dev nD) (t : Fin cfg0.N) : iblk0 V c 7 t = V c main_arg9 := by
  have e0 : win0_7.index t (0 : Fin 1) = 0 := by
    obtain ⟨-, -, -, -, -, -, -, -, -, -, -, -, e, -⟩ := idx_facts t
    exact e
  funext y
  show V c main_arg9 (((cfg0.win 7).blk t).view.emb y) = V c main_arg9 y
  refine congrArg (V c main_arg9) (funext fun a => Fin.ext ?_)
  match a with
  | ⟨0, _⟩ => show win0_7.index t (0 : Fin 1) * 32 + 1 * (y 0).val = (y 0).val; omega
theorem blk_8 (c : Dev nD) (t : Fin cfg0.N) : iblk0 V c 8 t = V c main_arg10 := by
  have e0 : win0_8.index t (0 : Fin 1) = 0 := by
    obtain ⟨-, -, -, -, -, -, -, -, -, -, -, -, -, e⟩ := idx_facts t
    exact e
  funext y
  show V c main_arg10 (((cfg0.win 8).blk t).view.emb y) = V c main_arg10 y
  refine congrArg (V c main_arg10) (funext fun a => Fin.ext ?_)
  match a with
  | ⟨0, _⟩ => show win0_8.index t (0 : Fin 1) * 32 + 1 * (y 0).val = (y 0).val; omega

/-- Row r of the feature block at point t is row 6000·t + r of the features: the row the output block's row r lands on. -/
theorem blk_rows (c : Dev nD) (t : Fin cfg0.N) (y : S6000x32.Idx) (q : Fin 64) :
    iblk0 V c 0 t (ix2 (y 0) q) = V c main_v17 (ix2 ((((cfg0.win 9).blk t).view.emb y) 0) q) := by
  obtain ⟨e0, e1, e2, -⟩ := idx_facts t
  show V c main_v17 (((cfg0.win 0).blk t).view.emb (ix2 (y 0) q)) = _
  refine congrArg (V c main_v17) (funext fun a => Fin.ext ?_)
  match a with
  | ⟨0, _⟩ => show win0_0.index t (0 : Fin 2) * 6000 + 1 * (y 0).val = win0_9.index t (0 : Fin 2) * 6000 + 1 * (y 0).val; omega
  | ⟨1, _⟩ => show win0_0.index t (1 : Fin 2) * 64 + 1 * q.val = q.val; omega

theorem blk_col (t : Fin cfg0.N) (y : S6000x32.Idx) : (((cfg0.win 9).blk t).view.emb y) 1 = y 1 := by
  obtain ⟨-, -, e2, -⟩ := idx_facts t
  refine Fin.ext ?_
  show win0_9.index t (1 : Fin 2) * 32 + 1 * (y 1).val = (y 1).val
  omega

/-- What point t writes back is block t of `stage`. -/
theorem flushed_eq (c : Dev nD) (t : Fin cfg0.N) :
    (dat0 V c).flushed 9 t = ((cfg0.win 9).blk t).view.read (Elt Ideal) (stage V c) := by
  show (cfg0.win 9).cut (grid0.coords t) ((dat0 V c).after 9 t) = _
  rw [after0_9]
  funext y
  show out0_9 (iblk0 V c 0 t) (iblk0 V c 1 t) (iblk0 V c 2 t) (iblk0 V c 3 t) (iblk0 V c 4 t) (iblk0 V c 5 t)
      (iblk0 V c 6 t) (iblk0 V c 7 t) (iblk0 V c 8 t) y = stage V c (((cfg0.win 9).blk t).view.emb y)
  rw [out_apply, blk_wa, blk_wb, blk_2, blk_4, blk_5, blk_6, blk_7, blk_8]
  unfold stage
  rw [blk_col]
  simp only [blk_rows V c t y]

/-- An index of the result array is in point t's block iff each coordinate is in the block's range on its axis. -/
theorem mem_blk (t : Fin cfg0.N) (i : S150000x32.Idx) :
    i ∈ ((cfg0.win 9).blk t).view.set ↔ ∀ a : Fin 2, win0_9.index t a * S6000x32.size a ≤ (i a).val ∧ (i a).val < win0_9.index t a * S6000x32.size a + S6000x32.size a := by
  show i ∈ ((View.whole main_v20).slice (win0_9.rect t)).set ↔ _
  rw [View.set_slice_whole, Rect.mem_set_unit]
  exact Iff.rfl

/-- The 25 blocks of 6000 rows cover the 150000 rows. -/
theorem cover (i : S150000x32.Idx) : ∃ t : Fin cfg0.N, (cfg0.win 9).flush t = true ∧ i ∈ ((cfg0.win 9).blk t).view.set := by
  have hi0 : (i 0).val < 150000 := (i 0).isLt
  have hi1 : (i 1).val < 32 := (i 1).isLt
  obtain ⟨t, ht⟩ := idx_onto ⟨(i 0).val / 6000, by omega⟩
  have q0 : win0_9.index t (0 : Fin 2) = (i 0).val / 6000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 6000 ≤ (i 0).val ∧ (i 0).val < win0_9.index t (0 : Fin 2) * 6000 + 6000; omega
  | ⟨1, _⟩ => show win0_9.index t (1 : Fin 2) * 32 ≤ (i 1).val ∧ (i 1).val < win0_9.index t (1 : Fin 2) * 32 + 32; omega

/-- The result array after the region is `stage` of the arrays the region found. -/
theorem final (c : Dev nD) : (dat0 V c).arrAt 9 cfg0.N = stage V c :=
  (dat0 V c).arrAt_eq_of_cover 9 (stage V c) (fun t _ => flushed_eq V c t) cover

end Cert.KernelIdeal.Stage0

end
-- ==== Proof.Stage1.lean ====
/-
  The second perceptron stage as one function of the arrays it finds. The region runs over 25 grid points; at point t
  it fetches rows 6000·t … 6000·t + 5999 of the aggregated features (all 32 columns) and the whole of every weight, bias
  and statistics array, and writes back rows 6000·t … 6000·t + 5999 of the result (all 32 columns). Row r of the block
  written at point t is `mlpAt` of row r of the block read at point t, that is of row 6000·t + r of the features; the 25
  blocks tile the 150000 rows, so the result array is, at (n, j), `mlpAt` of the features' row n: entry (n, j) depends on
  row n only.
-/
import proofs.«113044_j2869038153787_2_alg».proof.Proof.Gen.KernelIdeal.Frame
import proofs.«113044_j2869038153787_2_alg».proof.Proof.PerceptronRow

set_option maxRecDepth 16384

noncomputable section

namespace Cert.KernelIdeal.Stage1

open Cert.KernelIdeal Cert.KernelIdeal.Gen Cert.Gin
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The stage's result: at (n, j), channel j of the perceptron applied to row n of the aggregated features. -/
def stage (c : Dev nD) : S150000x32.Idx → EReal := fun i =>
  mlpAt (fun q => V c main_v34 (ix2 (i 0) q)) (fun q s => V c main_v35 (ix2 q s)) (fun s => V c main_arg12 (ix1 s))
    (fun q s => V c main_v36 (ix2 q s)) (fun s => V c main_arg14 (ix1 s)) (fun s => V c main_arg15 (ix1 s))
    (fun s => V c main_arg16 (ix1 s)) (fun s => V c main_arg17 (ix1 s)) (fun s => V c main_arg18 (ix1 s)) (i 1)

/-- What the body leaves in the output block, at an index, from the blocks it loaded. -/
theorem out_apply (x0 : Vec Ideal S6000x32 .f32) (x1 : Vec Ideal S32x32 .bf16) (x2 : Vec Ideal S32 .f32) (x3 : Vec Ideal S32x32 .bf16)
    (x4 x5 x6 x7 x8 : Vec Ideal S32 .f32) (y : S6000x32.Idx) :
    out1_9 x0 x1 x2 x3 x4 x5 x6 x7 x8 y
      = mlpAt (fun q => x0 (ix2 (y 0) q)) (fun q s => x1 (ix2 q s)) (fun s => x2 (ix1 s)) (fun q s => x3 (ix2 q s))
          (fun s => x4 (ix1 s)) (fun s => x5 (ix1 s)) (fun s => x6 (ix1 s)) (fun s => x7 (ix1 s)) (fun s => x8 (ix1 s)) (y 1) := by
  obtain ⟨p, j, rfl⟩ : ∃ (p : Fin 6000) (j : Fin 32), y = ix2 p j := ⟨y 0, y 1, eq_ix2 y⟩
  unfold out1_9
  rw [View.canon_unit_zero off2]
  simp only [View.ld_unit_zero (S := S6000x32) off2, View.ld_unit_zero (S := S32x32) off2, View.ld_unit_zero (S := S32x32) off2,
    View.ld_unit_zero (S := S32) off1]
  exact coreMlp_ix2 dot_S6000x32_S32x32_S6000x32_1_0_0_1_n_n dot_S6000x32_S32x32_S6000x32_1_0_0_1_n_n
    rfl rfl rfl rfl rfl rfl rfl rfl rfl rfl rfl rfl _ _ _ _ _ _ x0 x1 x2 x3 x4 x8 x7 x5 x6 p j

/-- The printed index maps over the grid: the feature window moves with the output window along the rows, and every
    other block index is 0. -/
theorem idx_facts : ∀ t : Fin cfg1.N, win1_0.index t (0 : Fin 2) = win1_9.index t (0 : Fin 2)
    ∧ win1_0.index t (1 : Fin 2) = 0 ∧ win1_9.index t (1 : Fin 2) = 0 ∧ win1_9.index t (0 : Fin 2) ≤ 24
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 1) = 0 ∧ win1_6.index t (0 : Fin 1) = 0 ∧ win1_7.index t (0 : Fin 1) = 0
    ∧ win1_8.index t (0 : Fin 1) = 0 :=
  (by decide +kernel : ∀ t : Fin grid1.N, _)

/-- Every block of rows is some point's. -/
theorem idx_onto : ∀ q0 : Fin 25, ∃ t : Fin cfg1.N, win1_9.index t = ![q0.val, 0] :=
  (by decide +kernel : ∀ q0 : Fin 25, ∃ t : Fin grid1.N, win1_9.index t = ![q0.val, 0])

/-- A window whose block index is 0 on both axes and whose block is the whole [a, b] array reads the array itself. -/
theorem blk_wa (c : Dev nD) (t : Fin cfg1.N) : iblk1 V c 1 t = V c main_v35 := by
  obtain ⟨-, -, -, -, e0, e1, -⟩ := idx_facts t
  funext y
  show V c main_v35 (((cfg1.win 1).blk t).view.emb y) = V c main_v35 y
  refine congrArg (V c main_v35) (funext fun a => Fin.ext ?_)
  match a with
  | ⟨0, _⟩ => show win1_1.index t (0 : Fin 2) * 32 + 1 * (y 0).val = (y 0).val; omega
  | ⟨1, _⟩ => show win1_1.index t (1 : Fin 2) * 32 + 1 * (y 1).val = (y 1).val; omega
theorem blk_wb (c : Dev nD) (t : Fin cfg1.N) : iblk1 V c 3 t = V c main_v36 := by
  obtain ⟨-, -, -, -, -, -, -, e0, e1, -⟩ := idx_facts t
  funext y
  show V c main_v36 (((cfg1.win 3).blk t).view.emb y) = V c main_v36 y
  refine congrArg (V c main_v36) (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega
theorem blk_2 (c : Dev nD) (t : Fin cfg1.N) : iblk1 V c 2 t = V c main_arg12 := by
  have e0 : win1_2.index t (0 : Fin 1) = 0 := by
    obtain ⟨-, -, -, -, -, -, e, -⟩ := idx_facts t
    exact e
  funext y
  show V c main_arg12 (((cfg1.win 2).blk t).view.emb y) = V c main_arg12 y
  refine congrArg (V c main_arg12) (funext fun a => Fin.ext ?_)
  match a with
  | ⟨0, _⟩ => show win1_2.index t (0 : Fin 1) * 32 + 1 * (y 0).val = (y 0).val; omega
theorem blk_4 (c : Dev nD) (t : Fin cfg1.N) : iblk1 V c 4 t = V c main_arg14 := by
  have e0 : win1_4.index t (0 : Fin 1) = 0 := by
    obtain ⟨-, -, -, -, -, -, -, -, -, e, -⟩ := idx_facts t
    exact e
  funext y
  show V c main_arg14 (((cfg1.win 4).blk t).view.emb y) = V c main_arg14 y
  refine congrArg (V c main_arg14) (funext fun a => Fin.ext ?_)
  match a with
  | ⟨0, _⟩ => show win1_4.index t (0 : Fin 1) * 32 + 1 * (y 0).val = (y 0).val; omega
theorem blk_5 (c : Dev nD) (t : Fin cfg1.N) : iblk1 V c 5 t = V c main_arg15 := by
  have e0 : win1_5.index t (0 : Fin 1) = 0 := by
    obtain ⟨-, -, -, -, -, -, -, -, -, -, e, -⟩ := idx_facts t
    exact e
  funext y
  show V c main_arg15 (((cfg1.win 5).blk t).view.emb y) = V c main_arg15 y
  refine congrArg (V c main_arg15) (funext fun a => Fin.ext ?_)
  match a with
  | ⟨0, _⟩ => show win1_5.index t (0 : Fin 1) * 32 + 1 * (y 0).val = (y 0).val; omega
theorem blk_6 (c : Dev nD) (t : Fin cfg1.N) : iblk1 V c 6 t = V c main_arg16 := by
  have e0 : win1_6.index t (0 : Fin 1) = 0 := by
    obtain ⟨-, -, -, -, -, -, -, -, -, -, -, e, -⟩ := idx_facts t
    exact e
  funext y
  show V c main_arg16 (((cfg1.win 6).blk t).view.emb y) = V c main_arg16 y
  refine congrArg (V c main_arg16) (funext fun a => Fin.ext ?_)
  match a with
  | ⟨0, _⟩ => show win1_6.index t (0 : Fin 1) * 32 + 1 * (y 0).val = (y 0).val; omega
theorem blk_7 (c : Dev nD) (t : Fin cfg1.N) : iblk1 V c 7 t = V c main_arg17 := by
  have e0 : win1_7.index t (0 : Fin 1) = 0 := by
    obtain ⟨-, -, -, -, -, -, -, -, -, -, -, -, e, -⟩ := idx_facts t
    exact e
  funext y
  show V c main_arg17 (((cfg1.win 7).blk t).view.emb y) = V c main_arg17 y
  refine congrArg (V c main_arg17) (funext fun a => Fin.ext ?_)
  match a with
  | ⟨0, _⟩ => show win1_7.index t (0 : Fin 1) * 32 + 1 * (y 0).val = (y 0).val; omega
theorem blk_8 (c : Dev nD) (t : Fin cfg1.N) : iblk1 V c 8 t = V c main_arg18 := by
  have e0 : win1_8.index t (0 : Fin 1) = 0 := by
    obtain ⟨-, -, -, -, -, -, -, -, -, -, -, -, -, e⟩ := idx_facts t
    exact e
  funext y
  show V c main_arg18 (((cfg1.win 8).blk t).view.emb y) = V c main_arg18 y
  refine congrArg (V c main_arg18) (funext fun a => Fin.ext ?_)
  match a with
  | ⟨0, _⟩ => show win1_8.index t (0 : Fin 1) * 32 + 1 * (y 0).val = (y 0).val; omega

/-- Row r of the feature block at point t is row 6000·t + r of the features: the row the output block's row r lands on. -/
theorem blk_rows (c : Dev nD) (t : Fin cfg1.N) (y : S6000x32.Idx) (q : Fin 32) :
    iblk1 V c 0 t (ix2 (y 0) q) = V c main_v34 (ix2 ((((cfg1.win 9).blk t).view.emb y) 0) q) := by
  obtain ⟨e0, e1, e2, -⟩ := idx_facts t
  show V c main_v34 (((cfg1.win 0).blk t).view.emb (ix2 (y 0) q)) = _
  refine congrArg (V c main_v34) (funext fun a => Fin.ext ?_)
  match a with
  | ⟨0, _⟩ => show win1_0.index t (0 : Fin 2) * 6000 + 1 * (y 0).val = win1_9.index t (0 : Fin 2) * 6000 + 1 * (y 0).val; omega
  | ⟨1, _⟩ => show win1_0.index t (1 : Fin 2) * 32 + 1 * q.val = q.val; omega

theorem blk_col (t : Fin cfg1.N) (y : S6000x32.Idx) : (((cfg1.win 9).blk t).view.emb y) 1 = y 1 := by
  obtain ⟨-, -, e2, -⟩ := idx_facts t
  refine Fin.ext ?_
  show win1_9.index t (1 : Fin 2) * 32 + 1 * (y 1).val = (y 1).val
  omega

/-- What point t writes back is block t of `stage`. -/
theorem flushed_eq (c : Dev nD) (t : Fin cfg1.N) :
    (dat1 V c).flushed 9 t = ((cfg1.win 9).blk t).view.read (Elt Ideal) (stage V c) := by
  show (cfg1.win 9).cut (grid1.coords t) ((dat1 V c).after 9 t) = _
  rw [after1_9]
  funext y
  show out1_9 (iblk1 V c 0 t) (iblk1 V c 1 t) (iblk1 V c 2 t) (iblk1 V c 3 t) (iblk1 V c 4 t) (iblk1 V c 5 t)
      (iblk1 V c 6 t) (iblk1 V c 7 t) (iblk1 V c 8 t) y = stage V c (((cfg1.win 9).blk t).view.emb y)
  rw [out_apply, blk_wa, blk_wb, blk_2, blk_4, blk_5, blk_6, blk_7, blk_8]
  unfold stage
  rw [blk_col]
  simp only [blk_rows V c t y]

/-- An index of the result array is in point t's block iff each coordinate is in the block's range on its axis. -/
theorem mem_blk (t : Fin cfg1.N) (i : S150000x32.Idx) :
    i ∈ ((cfg1.win 9).blk t).view.set ↔ ∀ a : Fin 2, win1_9.index t a * S6000x32.size a ≤ (i a).val ∧ (i a).val < win1_9.index t a * S6000x32.size a + S6000x32.size a := by
  show i ∈ ((View.whole main_v37).slice (win1_9.rect t)).set ↔ _
  rw [View.set_slice_whole, Rect.mem_set_unit]
  exact Iff.rfl

/-- The 25 blocks of 6000 rows cover the 150000 rows. -/
theorem cover (i : S150000x32.Idx) : ∃ t : Fin cfg1.N, (cfg1.win 9).flush t = true ∧ i ∈ ((cfg1.win 9).blk t).view.set := by
  have hi0 : (i 0).val < 150000 := (i 0).isLt
  have hi1 : (i 1).val < 32 := (i 1).isLt
  obtain ⟨t, ht⟩ := idx_onto ⟨(i 0).val / 6000, by omega⟩
  have q0 : win1_9.index t (0 : Fin 2) = (i 0).val / 6000 := congrFun ht 0
  have q1 : win1_9.index t (1 : Fin 2) = 0 := congrFun ht 1
  refine ⟨t, flush1_9 t, ?_⟩
  rw [mem_blk]
  intro a
  match a with
  | ⟨0, _⟩ => show win1_9.index t (0 : Fin 2) * 6000 ≤ (i 0).val ∧ (i 0).val < win1_9.index t (0 : Fin 2) * 6000 + 6000; omega
  | ⟨1, _⟩ => show win1_9.index t (1 : Fin 2) * 32 ≤ (i 1).val ∧ (i 1).val < win1_9.index t (1 : Fin 2) * 32 + 32; omega

/-- The result array after the region is `stage` of the arrays the region found. -/
theorem final (c : Dev nD) : (dat1 V c).arrAt 9 cfg1.N = stage V c :=
  (dat1 V c).arrAt_eq_of_cover 9 (stage V c) (fun t _ => flushed_eq V c t) cover

end Cert.KernelIdeal.Stage1

end
-- ==== Proof.HeadRow.lean ====
/-
  The classification head, row by row, on the extended reals.

  For a graph's pooled feature row P (32 entries) the head computes two logits
      ℓ_c = Σ_q max(Σ_p P_p·W1(p,q) + b1_q, 0)·W2(q,c) + b2_c ,
  and returns their softmax: with M = max(−∞, max_c ℓ_c), the entry c is exp(ℓ_c − M) / Σ_k exp(ℓ_k − M) (the quotient is the
  extended reals' `Ideal.div`). The softmax of a [256, 2] array of logits is stated once (`softmaxOf`); both the vector unit's
  arrangement of it (a lane maximum and a lane sum over axis 1, each result seen as a column and laid along the two
  classes) and the host's (a reduce with a maximum body and one with an add body from the words −∞ and 0, each result
  broadcast to a column and then along the classes) are that function of the logits. The row maximum is kept as the
  fold both reductions read as; nothing about it is used beyond its being the same on both sides.
-/
import Idealize.ShloMosaic.Lib.ValueLayout
import Idealize.ShloMosaic.Lib.ValueIdx
import Idealize.ShloMosaic.Lib.Pipeline.Value
import Idealize.ShloMosaic.PureOps.Ideal.Laws

noncomputable section

namespace Cert.Gin

open Idealize.ShloMosaic Idealize.ShloMosaic.ValueIdx

/-- The float word of −∞ read on the extended reals. -/
abbrev negInfW : EReal := Ideal.ofBits .f32 0xFF800000#32

/-- The shapes of the logits, of a per-graph scalar, and of that scalar as a column. -/
abbrev SL : Shape := ⟨2, ![256, 2]⟩
abbrev SR : Shape := ⟨1, ![256]⟩
abbrev SC : Shape := ⟨2, ![256, 1]⟩

/-- Row j's maximum, from −∞ (taken twice, as both programs do). -/
def rowMax (h : SL.Reduces [(1 : Fin 2)] SR) (L : SL.Idx → EReal) (j : SR.Idx) : EReal :=
  max negInfW ((Finset.univ : Finset (Fin (SL.size 1))).fold max negInfW (L ∘ h.lift j))

/-- The softmax over the two classes of each row of logits. -/
def softmaxOf (h : SL.Reduces [(1 : Fin 2)] SR) (L : SL.Idx → EReal) : SL.Idx → EReal := fun i =>
  Ideal.div (Ideal.exp (L i - rowMax h L (ix1 (i 0))))
    (∑ k : Fin (SL.size 1), Ideal.exp (L (h.lift (ix1 (i 0)) k) - rowMax h L (ix1 ((h.lift (ix1 (i 0)) k) 0))))

/-- A per-graph scalar seen as a column and laid along the classes reads, at any index, the scalar of the index's row. -/
theorem colAlongCore (v : SR.Idx → EReal) (hcol : SR.ShapeCasts SC) (hbr : SC.Broadcasts SL) (x : SL.Idx) :
    broadcastTo SL (shapeCast SC v hcol) hbr x = v (ix1 (x 0)) := by
  rw [broadcastTo_apply (shapeCast SC v hcol) hbr x (ix2 (x 0) (0 : Fin 1)) (fun ax => by
    match ax with
    | ⟨0, _⟩ => rfl
    | ⟨1, _⟩ => rfl)]
  exact shapeCast_apply v hcol _ (ix1 (x 0)) (by
    rw [Shape.rowMajor_val_two, Shape.rowMajor_val_one]
    show (x 0).val = (x 0).val * 1 + 0
    omega)

/-- The same through the host's two broadcasts. -/
theorem colAlongHost (v : SR.Idx → EReal) (hd1 : SR.BroadcastsInDim SC ![0]) (hd2 : SC.BroadcastsInDim SL ![0, 1]) (x : SL.Idx) :
    broadcastInDim SL ![0, 1] hd2 (broadcastInDim SC ![0] hd1 v) x = v (ix1 (x 0)) := by
  rw [broadcastInDim_apply ![0, 1] hd2 (broadcastInDim SC ![0] hd1 v) x (ix2 (x 0) (0 : Fin 1)) (fun ax => by
    match ax with
    | ⟨0, _⟩ => rfl
    | ⟨1, _⟩ => rfl)]
  exact broadcastInDim_apply ![0] hd1 v (ix2 (x 0) (0 : Fin 1)) (ix1 (x 0)) (fun ax => by
    match ax with
    | ⟨0, _⟩ => rfl)

/-- The vector unit's softmax of a [256, 2] array of logits is `softmaxOf`. -/
theorem coreSoftmax_eq (h : SL.Reduces [(1 : Fin 2)] SR) (hcol : SR.ShapeCasts SC) (hbr : SC.Broadcasts SL)
    (hφ : FKind.Formats FTy.f32) (hm : (0xFF800000#32 : BitVec FTy.f32.bits) = FKind.maximumf.neutral .f32 hφ)
    (ha : (0x00000000#32 : BitVec FTy.f32.bits) = FKind.add.neutral .f32 hφ) (L : FVec Ideal SL .f32) :
    divf (exp (subf L (broadcastTo SL (shapeCast SC (maximumf (broadcast SR (Scalar.ofBits .f32 0xFF800000#32))
            (multiReduction .maximumf [1] SR L 0xFF800000#32 h hφ hm)) hcol) hbr)))
        (broadcastTo SL (shapeCast SC (multiReduction .add [1] SR (exp (subf L (broadcastTo SL (shapeCast SC
            (maximumf (broadcast SR (Scalar.ofBits .f32 0xFF800000#32)) (multiReduction .maximumf [1] SR L 0xFF800000#32 h hφ hm)) hcol) hbr)))
            0x00000000#32 h hφ ha) hcol) hbr)
      = softmaxOf h L := by
  funext i
  rw [divf_apply, colAlongCore, Ideal.multiReduction_add_single]
  unfold softmaxOf rowMax
  refine congrArg₂ Ideal.div ?_ (Finset.sum_congr rfl fun k _ => ?_)
  · show Ideal.exp (L i - _) = _
    rw [colAlongCore, maximumf_apply, broadcast_apply, Ideal.multiReduction_maximumf_single]; rfl
  · show Ideal.exp (L _ - _) = _
    rw [colAlongCore, maximumf_apply, broadcast_apply, Ideal.multiReduction_maximumf_single]; rfl

/-- The host's softmax of a [256, 2] array of logits is `softmaxOf`. -/
theorem hostSoftmax_eq (h : SL.Reduces [(1 : Fin 2)] SR) (h' : SL.ReducesTo [(1 : Fin 2)] SR)
    (hd1 : SR.BroadcastsInDim SC ![0]) (hd2 : SC.BroadcastsInDim SL ![0, 1])
    (hz : (⟨0, ![]⟩ : Shape).BroadcastsInDim SR ![]) (hu : 0 < (⟨0, ![]⟩ : Shape).numel) (L : FVec Ideal SL .f32) :
    Host.divf (Host.exp (subf L (broadcastInDim SL ![0, 1] hd2 (broadcastInDim SC ![0] hd1
            (maximumf (broadcastInDim SR ![] hz (constant (F := Ideal) ⟨0, ![]⟩ .f32 0xFF800000#32))
              (Host.reduce FloatOps.maximumf L (constant (F := Ideal) ⟨0, ![]⟩ .f32 0xFF800000#32) h' hu))))))
        (broadcastInDim SL ![0, 1] hd2 (broadcastInDim SC ![0] hd1 (Host.reduceAdd (Host.exp (subf L
            (broadcastInDim SL ![0, 1] hd2 (broadcastInDim SC ![0] hd1
              (maximumf (broadcastInDim SR ![] hz (constant (F := Ideal) ⟨0, ![]⟩ .f32 0xFF800000#32))
                (Host.reduce FloatOps.maximumf L (constant (F := Ideal) ⟨0, ![]⟩ .f32 0xFF800000#32) h' hu))))))
            (constant (F := Ideal) ⟨0, ![]⟩ .f32 0x00000000#32) h' hu)))
      = softmaxOf h L := by
  funext i
  show Ideal.div _ _ = _
  rw [colAlongHost]
  simp only [Host.reduceAdd, Ideal.hostReduceAdd_def]
  rw [Ideal.hostReduceAdd_single h' h]
  unfold softmaxOf rowMax
  have hzero : (constant (F := Ideal) (⟨0, ![]⟩ : Shape) .f32 0x00000000#32) (Shape.Idx.first hu) = 0 := by
    show Ideal.ofBits .f32 0x00000000#32 = 0
    exact Ideal.ofBits_zero_f32
  rw [hzero, zero_add]
  refine congrArg₂ Ideal.div ?_ (Finset.sum_congr rfl fun k _ => ?_)
  · show Ideal.exp (L i - _) = _
    rw [colAlongHost, maximumf_apply, Host.reduce_eq_fold_single FloatOps.maximumf L _ h' h hu]; rfl
  · show Ideal.exp (L _ - _) = _
    rw [colAlongHost, maximumf_apply, Host.reduce_eq_fold_single FloatOps.maximumf L _ h' h hu]; rfl

end Cert.Gin

end
-- ==== Proof.Stage2.lean ====
/-
  The classification head as one function of the arrays it finds. The region has a single grid point: every window's
  block is its whole array. The body computes the two logits of each of the 256 pooled rows (a rectified dense layer,
  then a dense layer) and their softmax over the two classes, and the write-back covers the whole [256, 2] result.
-/
import proofs.«113044_j2869038153787_2_alg».proof.Proof.Gen.KernelIdeal.Frame
import proofs.«113044_j2869038153787_2_alg».proof.Proof.PerceptronRow
import proofs.«113044_j2869038153787_2_alg».proof.Proof.HeadRow

set_option maxRecDepth 16384

noncomputable section

namespace Cert.KernelIdeal.Stage2

open Cert.KernelIdeal Cert.KernelIdeal.Gen Cert.Gin
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The logits of every pooled row, from the pooled features and the head's weights and biases. -/
def logitsOf (P : S256x32.Idx → EReal) (w1 : S32x32.Idx → EReal) (b1 : S32.Idx → EReal) (w2 : S32x2.Idx → EReal)
    (b2 : S2.Idx → EReal) : S256x2.Idx → EReal := fun x =>
  logitsAt (fun q => P (ix2 (x 0) q)) (fun q s => w1 (ix2 q s)) (fun s => b1 (ix1 s)) (fun q s => w2 (ix2 q s))
    (fun s => b2 (ix1 s)) (x 1)

/-- The head's result: the softmax of the logits. -/
def head (c : Dev nD) : S256x2.Idx → EReal :=
  softmaxOf reduces_S256x2_S256 (logitsOf (V c main_v40) (V c main_v41) (V c main_arg20) (V c main_v42) (V c main_arg22))

/-- The logits as the body computes them. -/
def logitsCore (x0 : FVec Ideal S256x32 .f32) (x1 : FVec Ideal S32x32 .bf16) (x2 : FVec Ideal S32 .f32) (x3 : FVec Ideal S32x2 .bf16)
    (x4 : FVec Ideal S2 .f32) : FVec Ideal S256x2 .f32 :=
  addf (matmul dot_S256x32_S32x2_S256x2_1_0_0_1_n_n none (truncf .bf16 (maximumf (addf
      (matmul dot_S256x32_S32x32_S256x32_1_0_0_1_n_n none (truncf .bf16 (shapeCast S256x32 x0 shapeCasts_S256x32_S256x32) bitsLt_bf16_f32)
        (shapeCast S32x32 x1 shapeCasts_S32x32_S32x32) (constant S256x32 .f32 0x00000000#32))
      (broadcastTo S256x32 (shapeCast S1x32 x2 shapeCasts_S32_S1x32) broadcasts_S1x32_S256x32))
      (broadcast S256x32 (Scalar.ofBits .f32 0x00000000#32))) bitsLt_bf16_f32) (shapeCast S32x2 x3 shapeCasts_S32x2_S32x2)
      (constant S256x2 .f32 0x00000000#32))
    (broadcastTo S256x2 (shapeCast S1x2 x4 shapeCasts_S2_S1x2) broadcasts_S1x2_S256x2)

/-- What the body leaves in the output block, from the blocks it loaded. -/
theorem out_eq (x0 : Vec Ideal S256x32 .f32) (x1 : Vec Ideal S32x32 .bf16) (x2 : Vec Ideal S32 .f32) (x3 : Vec Ideal S32x2 .bf16)
    (x4 : Vec Ideal S2 .f32) :
    out2_5 x0 x1 x2 x3 x4 = softmaxOf reduces_S256x2_S256 (logitsOf x0 x1 x2 x3 x4) := by
  unfold out2_5
  rw [View.canon_unit_zero off2]
  simp only [View.ld_unit_zero (S := S256x32) off2, View.ld_unit_zero (S := S32x32) off2, View.ld_unit_zero (S := S32x2) off2,
    View.ld_unit_zero (S := S32) off1, View.ld_unit_zero (S := S2) off1]
  refine (coreSoftmax_eq reduces_S256x2_S256 shapeCasts_S256_S256x1 broadcasts_S256x1_S256x2 (.inl rfl) rfl rfl
    (logitsCore x0 x1 x2 x3 x4)).trans ?_
  refine congrArg (softmaxOf reduces_S256x2_S256) (funext fun x => ?_)
  obtain ⟨p, c, rfl⟩ : ∃ (p : Fin 256) (c : Fin 2), x = ix2 p c := ⟨x 0, x 1, eq_ix2 x⟩
  exact coreLogits_ix2 dot_S256x32_S32x32_S256x32_1_0_0_1_n_n dot_S256x32_S32x2_S256x2_1_0_0_1_n_n
    rfl rfl rfl rfl rfl rfl rfl rfl rfl rfl rfl rfl _ _ _ _ _ _ _ _ x0 x1 x2 x3 x4 p c

/-- The printed index maps at the one grid point: every block index is 0. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = 0 ∧ win2_5.index t (1 : Fin 2) = 0 :=
  (by decide +kernel : ∀ t : Fin grid2.N, _)

theorem blk_0 (c : Dev nD) (t : Fin cfg2.N) : iblk2 V c 0 t = V c main_v40 := by
  obtain ⟨e0, e1, -⟩ := idx_facts t
  funext y
  show V c main_v40 (((cfg2.win 0).blk t).view.emb y) = V c main_v40 y
  refine congrArg (V c main_v40) (funext fun a => Fin.ext ?_)
  match a with
  | ⟨0, _⟩ => show win2_0.index t (0 : Fin 2) * 256 + 1 * (y 0).val = (y 0).val; omega
  | ⟨1, _⟩ => show win2_0.index t (1 : Fin 2) * 32 + 1 * (y 1).val = (y 1).val; omega
theorem blk_1 (c : Dev nD) (t : Fin cfg2.N) : iblk2 V c 1 t = V c main_v41 := by
  obtain ⟨-, -, e0, e1, -⟩ := idx_facts t
  funext y
  show V c main_v41 (((cfg2.win 1).blk t).view.emb y) = V c main_v41 y
  refine congrArg (V c main_v41) (funext fun a => Fin.ext ?_)
  match a with
  | ⟨0, _⟩ => show win2_1.index t (0 : Fin 2) * 32 + 1 * (y 0).val = (y 0).val; omega
  | ⟨1, _⟩ => show win2_1.index t (1 : Fin 2) * 32 + 1 * (y 1).val = (y 1).val; omega
theorem blk_2 (c : Dev nD) (t : Fin cfg2.N) : iblk2 V c 2 t = V c main_arg20 := by
  obtain ⟨-, -, -, -, e0, -⟩ := idx_facts t
  funext y
  show V c main_arg20 (((cfg2.win 2).blk t).view.emb y) = V c main_arg20 y
  refine congrArg (V c main_arg20) (funext fun a => Fin.ext ?_)
  match a with
  | ⟨0, _⟩ => show win2_2.index t (0 : Fin 1) * 32 + 1 * (y 0).val = (y 0).val; omega
theorem blk_3 (c : Dev nD) (t : Fin cfg2.N) : iblk2 V c 3 t = V c main_v42 := by
  obtain ⟨-, -, -, -, -, e0, e1, -⟩ := idx_facts t
  funext y
  show V c main_v42 (((cfg2.win 3).blk t).view.emb y) = V c main_v42 y
  refine congrArg (V c main_v42) (funext fun a => Fin.ext ?_)
  match a with
  | ⟨0, _⟩ => show win2_3.index t (0 : Fin 2) * 32 + 1 * (y 0).val = (y 0).val; omega
  | ⟨1, _⟩ => show win2_3.index t (1 : Fin 2) * 2 + 1 * (y 1).val = (y 1).val; omega
theorem blk_4 (c : Dev nD) (t : Fin cfg2.N) : iblk2 V c 4 t = V c main_arg22 := by
  obtain ⟨-, -, -, -, -, -, -, e0, -⟩ := idx_facts t
  funext y
  show V c main_arg22 (((cfg2.win 4).blk t).view.emb y) = V c main_arg22 y
  refine congrArg (V c main_arg22) (funext fun a => Fin.ext ?_)
  match a with
  | ⟨0, _⟩ => show win2_4.index t (0 : Fin 1) * 2 + 1 * (y 0).val = (y 0).val; omega

theorem blk_out (t : Fin cfg2.N) (y : S256x2.Idx) : ((cfg2.win 5).blk t).view.emb y = y := by
  obtain ⟨-, -, -, -, -, -, -, -, e0, e1⟩ := idx_facts t
  refine funext fun a => Fin.ext ?_
  match a with
  | ⟨0, _⟩ => show win2_5.index t (0 : Fin 2) * 256 + 1 * (y 0).val = (y 0).val; omega
  | ⟨1, _⟩ => show win2_5.index t (1 : Fin 2) * 2 + 1 * (y 1).val = (y 1).val; omega

/-- What the one point writes back is `head`, whole. -/
theorem flushed_eq (c : Dev nD) (t : Fin cfg2.N) :
    (dat2 V c).flushed 5 t = ((cfg2.win 5).blk t).view.read (Elt Ideal) (head V c) := by
  show (cfg2.win 5).cut (grid2.coords t) ((dat2 V c).after 5 t) = _
  rw [after2_5]
  funext y
  show out2_5 (iblk2 V c 0 t) (iblk2 V c 1 t) (iblk2 V c 2 t) (iblk2 V c 3 t) (iblk2 V c 4 t) y
      = head V c (((cfg2.win 5).blk t).view.emb y)
  rw [out_eq, blk_0, blk_1, blk_2, blk_3, blk_4, blk_out]
  rfl

theorem mem_blk (t : Fin cfg2.N) (i : S256x2.Idx) :
    i ∈ ((cfg2.win 5).blk t).view.set ↔ ∀ a : Fin 2, win2_5.index t a * S256x2.size a ≤ (i a).val ∧ (i a).val < win2_5.index t a * S256x2.size a + S256x2.size a := by
  show i ∈ ((View.whole main_v43).slice (win2_5.rect t)).set ↔ _
  rw [View.set_slice_whole, Rect.mem_set_unit]
  exact Iff.rfl

theorem cover (i : S256x2.Idx) : ∃ t : Fin cfg2.N, (cfg2.win 5).flush t = true ∧ i ∈ ((cfg2.win 5).blk t).view.set := by
  have hi0 : (i 0).val < 256 := (i 0).isLt
  have hi1 : (i 1).val < 2 := (i 1).isLt
  have t : Fin cfg2.N := ⟨0, by decide⟩
  obtain ⟨-, -, -, -, -, -, -, -, q0, q1⟩ := idx_facts t
  refine ⟨t, flush2_5 t, ?_⟩
  rw [mem_blk]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 2 ≤ (i 1).val ∧ (i 1).val < win2_5.index t (1 : Fin 2) * 2 + 2; omega

/-- The result array after the region is `head` of the arrays the region found. -/
theorem final (c : Dev nD) : (dat2 V c).arrAt 5 cfg2.N = head V c :=
  (dat2 V c).arrAt_eq_of_cover 5 (head V c) (fun t _ => flushed_eq V c t) cover

end Cert.KernelIdeal.Stage2

end
-- ==== Proof.LibScatterOnto.lean ====
/-
  A general lemma about an accumulating scatter on the extended reals, over arbitrary shapes and dimension records: the
  scatter onto a table is the table plus the same scatter onto the zero table. Its use here is the neighbourhood aggregation. One program adds the gathered neighbour rows onto the feature table itself
  (an accumulating scatter whose operand is the table); the other scatters them onto zeros and adds the table
  afterwards. Entry i of an accumulating scatter is the operand's entry i plus the sum of the updates landing on i, so
  the first is x_i + Σ and the second x_i + (0 + Σ): equal on the extended reals by 0 + y = y alone, with no finiteness,
  whenever both use the same indices and the same updates.
-/
import Idealize.ShloMosaic.PureOps.Ideal
import Idealize.ShloMosaic.PureOps.Ideal.Laws
import Idealize.ShloMosaic.Lib.ValueIdx

noncomputable section

namespace Cert.Gin

open Idealize.ShloMosaic

/-- An accumulating scatter onto a table is the table plus the same scatter onto the zero table. -/
theorem scatterAdd_onto {s si su : Shape} {w : ℕ} (d : ScatterDims s si su)
    (hz : (⟨0, ![]⟩ : Shape).BroadcastsInDim s ![]) (x : FVec Ideal s .f32) (idx : IVec si w) (u : FVec Ideal su .f32) :
    Host.scatterAdd d x idx u
      = addf x (Host.scatterAdd d (broadcastInDim s ![] hz (constant (F := Ideal) ⟨0, ![]⟩ .f32 0x00000000#32)) idx u) := by
  funext i
  show Ideal.hostScatterAdd d x idx u i
    = x i + Ideal.hostScatterAdd d (broadcastInDim s ![] hz (constant (F := Ideal) ⟨0, ![]⟩ .f32 0x00000000#32)) idx u i
  unfold Ideal.hostScatterAdd
  have h0 : (broadcastInDim s ![] hz (constant (F := Ideal) ⟨0, ![]⟩ .f32 0x00000000#32)) i = 0 := by
    show Ideal.ofBits .f32 0x00000000#32 = 0
    exact Ideal.ofBits_zero_f32
  rw [h0, zero_add]

end Cert.Gin

end
-- ==== Proof.KernelStages.lean ====
/-
  The idealized kernel's buffers at each boundary between its segments, as formulas of the argument arrays.
  Before the first region the host splits the edge list into its source and target rows, wraps negative entries of each
  by the node count, gathers the source rows of the features and adds them onto the features at the targets; it also
  changes the weights' float format (the identity on extended reals). The first region leaves the perceptron stage of
  that array; the second stretch aggregates it the same way, the second region leaves its stage; the third stretch pools
  the rows by graph from zeros, and the last region leaves the head's softmax. No stretch and no region writes an
  argument, so each argument read later is the launch's.
-/
import proofs.«113044_j2869038153787_2_alg».proof.Proof.Stage0
import proofs.«113044_j2869038153787_2_alg».proof.Proof.Stage1
import proofs.«113044_j2869038153787_2_alg».proof.Proof.Stage2
import proofs.«113044_j2869038153787_2_alg».proof.Proof.LibScatterOnto

set_option maxRecDepth 16384

noncomputable section

namespace Cert.KernelIdeal.Value

open Cert.KernelIdeal Cert.KernelIdeal.Gen Cert.Gin
open Idealize.ShloMosaic Idealize.ShloMosaic.TcCoe Idealize.SL.Sem Idealize.ShloMosaic.ValueIdx

/-- A buffer that no operation of a stretch writes keeps its contents through the stretch. -/
macro "unwritten_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The edge list's source and target rows. -/
abbrev srcRow (a1 : IVec S2x2400000 32) : IVec S2400000 32 :=
  shapeCast S2400000 (extractStridedSlice S1x2400000 ![0, 0] a1 slices_S2x2400000_S1x2400000_0_0) shapeCasts_S1x2400000_S2400000
abbrev dstRow (a1 : IVec S2x2400000 32) : IVec S2400000 32 :=
  shapeCast S2400000 (extractStridedSlice S1x2400000 ![1, 0] a1 slices_S2x2400000_S1x2400000_1_0) shapeCasts_S1x2400000_S2400000

/-- A row of node indices with each negative entry raised by the node count, as a column of start indices. -/
abbrev wrapped (r : IVec S2400000 32) : IVec S2400000x1 32 :=
  broadcastInDim S2400000x1 ![0] bcast_S2400000_S2400000x1_0
    (select (cmpi .slt r (broadcastInDim S2400000 ![] bcast_S_S2400000 (constantI S_ 32 0#32)))
      (addi r (broadcastInDim S2400000 ![] bcast_S_S2400000 (constantI S_ 32 150000#32))) r)

/-- The features with every edge's source row added at the edge's target: width 64, width 32. -/
abbrev agg64 (x : FVec Ideal S150000x64 .f32) (src dst : IVec S2400000 32) : FVec Ideal S150000x64 .f32 :=
  Host.scatterAdd scatter_S150000x64_S2400000x1_S2400000x64_1_0_0_1 x (wrapped dst)
    (Host.gather gather_S150000x64_S2400000x1_S2400000x64_1_0_n_n_0_1_164 x (wrapped src))
abbrev agg32 (x : FVec Ideal S150000x32 .f32) (src dst : IVec S2400000 32) : FVec Ideal S150000x32 .f32 :=
  Host.scatterAdd scatter_S150000x32_S2400000x1_S2400000x32_1_0_0_1 x (wrapped dst)
    (Host.gather gather_S150000x32_S2400000x1_S2400000x32_1_0_n_n_0_1_132 x (wrapped src))

/-- The node rows summed by graph, from zeros. -/
abbrev pool (x : FVec Ideal S150000x32 .f32) (b : IVec S150000 32) : FVec Ideal S256x32 .f32 :=
  Host.scatterAdd scatter_S256x32_S150000x1_S150000x32_1_0_0_1
    (broadcastInDim S256x32 ![] bcast_S_S256x32 (constant S_ .f32 0x00000000#32))
    (broadcastInDim S150000x1 ![0] bcast_S150000_S150000x1_0 b) x

variable (m : (ℓ : Loc nD τ sig) → Buf (Elt Ideal) ℓ) (ρ : Dev nD → PrngReg) (c : Dev nD)

/-! ## The arguments at the boundaries -/
theorem a1_4 : W1 m ρ c (Proc.devRef .tc main_arg4) = (m ((c : Thread nD τ).loc main_arg4)) := by
  show StableHlo.after hostOps0 (W0 m ρ c) (Proc.devRef .tc main_arg4) = _
  unwritten_by hostOps0
theorem a1_6 : W1 m ρ c (Proc.devRef .tc main_arg6) = (m ((c : Thread nD τ).loc main_arg6)) := by
  show StableHlo.after hostOps0 (W0 m ρ c) (Proc.devRef .tc main_arg6) = _
  unwritten_by hostOps0
theorem a1_7 : W1 m ρ c (Proc.devRef .tc main_arg7) = (m ((c : Thread nD τ).loc main_arg7)) := by
  show StableHlo.after hostOps0 (W0 m ρ c) (Proc.devRef .tc main_arg7) = _
  unwritten_by hostOps0
theorem a1_8 : W1 m ρ c (Proc.devRef .tc main_arg8) = (m ((c : Thread nD τ).loc main_arg8)) := by
  show StableHlo.after hostOps0 (W0 m ρ c) (Proc.devRef .tc main_arg8) = _
  unwritten_by hostOps0
theorem a1_9 : W1 m ρ c (Proc.devRef .tc main_arg9) = (m ((c : Thread nD τ).loc main_arg9)) := by
  show StableHlo.after hostOps0 (W0 m ρ c) (Proc.devRef .tc main_arg9) = _
  unwritten_by hostOps0
theorem a1_10 : W1 m ρ c (Proc.devRef .tc main_arg10) = (m ((c : Thread nD τ).loc main_arg10)) := by
  show StableHlo.after hostOps0 (W0 m ρ c) (Proc.devRef .tc main_arg10) = _
  unwritten_by hostOps0
theorem a1_11 : W1 m ρ c (Proc.devRef .tc main_arg11) = (m ((c : Thread nD τ).loc main_arg11)) := by
  show StableHlo.after hostOps0 (W0 m ρ c) (Proc.devRef .tc main_arg11) = _
  unwritten_by hostOps0
theorem a1_12 : W1 m ρ c (Proc.devRef .tc main_arg12) = (m ((c : Thread nD τ).loc main_arg12)) := by
  show StableHlo.after hostOps0 (W0 m ρ c) (Proc.devRef .tc main_arg12) = _
  unwritten_by hostOps0
theorem a1_13 : W1 m ρ c (Proc.devRef .tc main_arg13) = (m ((c : Thread nD τ).loc main_arg13)) := by
  show StableHlo.after hostOps0 (W0 m ρ c) (Proc.devRef .tc main_arg13) = _
  unwritten_by hostOps0
theorem a1_14 : W1 m ρ c (Proc.devRef .tc main_arg14) = (m ((c : Thread nD τ).loc main_arg14)) := by
  show StableHlo.after hostOps0 (W0 m ρ c) (Proc.devRef .tc main_arg14) = _
  unwritten_by hostOps0
theorem a1_15 : W1 m ρ c (Proc.devRef .tc main_arg15) = (m ((c : Thread nD τ).loc main_arg15)) := by
  show StableHlo.after hostOps0 (W0 m ρ c) (Proc.devRef .tc main_arg15) = _
  unwritten_by hostOps0
theorem a1_16 : W1 m ρ c (Proc.devRef .tc main_arg16) = (m ((c : Thread nD τ).loc main_arg16)) := by
  show StableHlo.after hostOps0 (W0 m ρ c) (Proc.devRef .tc main_arg16) = _
  unwritten_by hostOps0
theorem a1_17 : W1 m ρ c (Proc.devRef .tc main_arg17) = (m ((c : Thread nD τ).loc main_arg17)) := by
  show StableHlo.after hostOps0 (W0 m ρ c) (Proc.devRef .tc main_arg17) = _
  unwritten_by hostOps0
theorem a1_18 : W1 m ρ c (Proc.devRef .tc main_arg18) = (m ((c : Thread nD τ).loc main_arg18)) := by
  show StableHlo.after hostOps0 (W0 m ρ c) (Proc.devRef .tc main_arg18) = _
  unwritten_by hostOps0
theorem a1_2 : W1 m ρ c (Proc.devRef .tc main_arg2) = (m ((c : Thread nD τ).loc main_arg2)) := by
  show StableHlo.after hostOps0 (W0 m ρ c) (Proc.devRef .tc main_arg2) = _
  unwritten_by hostOps0
theorem a1_19 : W1 m ρ c (Proc.devRef .tc main_arg19) = (m ((c : Thread nD τ).loc main_arg19)) := by
  show StableHlo.after hostOps0 (W0 m ρ c) (Proc.devRef .tc main_arg19) = _
  unwritten_by hostOps0
theorem a1_20 : W1 m ρ c (Proc.devRef .tc main_arg20) = (m ((c : Thread nD τ).loc main_arg20)) := by
  show StableHlo.after hostOps0 (W0 m ρ c) (Proc.devRef .tc main_arg20) = _
  unwritten_by hostOps0
theorem a1_21 : W1 m ρ c (Proc.devRef .tc main_arg21) = (m ((c : Thread nD τ).loc main_arg21)) := by
  show StableHlo.after hostOps0 (W0 m ρ c) (Proc.devRef .tc main_arg21) = _
  unwritten_by hostOps0
theorem a1_22 : W1 m ρ c (Proc.devRef .tc main_arg22) = (m ((c : Thread nD τ).loc main_arg22)) := by
  show StableHlo.after hostOps0 (W0 m ρ c) (Proc.devRef .tc main_arg22) = _
  unwritten_by hostOps0
theorem a2_11 : W2 m ρ c (Proc.devRef .tc main_arg11) = (m ((c : Thread nD τ).loc main_arg11)) :=
  (W2_of_ne m ρ c main_arg11 (by decide)).trans (a1_11 m ρ c)
theorem a2_12 : W2 m ρ c (Proc.devRef .tc main_arg12) = (m ((c : Thread nD τ).loc main_arg12)) :=
  (W2_of_ne m ρ c main_arg12 (by decide)).trans (a1_12 m ρ c)
theorem a2_13 : W2 m ρ c (Proc.devRef .tc main_arg13) = (m ((c : Thread nD τ).loc main_arg13)) :=
  (W2_of_ne m ρ c main_arg13 (by decide)).trans (a1_13 m ρ c)
theorem a2_14 : W2 m ρ c (Proc.devRef .tc main_arg14) = (m ((c : Thread nD τ).loc main_arg14)) :=
  (W2_of_ne m ρ c main_arg14 (by decide)).trans (a1_14 m ρ c)
theorem a2_15 : W2 m ρ c (Proc.devRef .tc main_arg15) = (m ((c : Thread nD τ).loc main_arg15)) :=
  (W2_of_ne m ρ c main_arg15 (by decide)).trans (a1_15 m ρ c)
theorem a2_16 : W2 m ρ c (Proc.devRef .tc main_arg16) = (m ((c : Thread nD τ).loc main_arg16)) :=
  (W2_of_ne m ρ c main_arg16 (by decide)).trans (a1_16 m ρ c)
theorem a2_17 : W2 m ρ c (Proc.devRef .tc main_arg17) = (m ((c : Thread nD τ).loc main_arg17)) :=
  (W2_of_ne m ρ c main_arg17 (by decide)).trans (a1_17 m ρ c)
theorem a2_18 : W2 m ρ c (Proc.devRef .tc main_arg18) = (m ((c : Thread nD τ).loc main_arg18)) :=
  (W2_of_ne m ρ c main_arg18 (by decide)).trans (a1_18 m ρ c)
theorem a2_2 : W2 m ρ c (Proc.devRef .tc main_arg2) = (m ((c : Thread nD τ).loc main_arg2)) :=
  (W2_of_ne m ρ c main_arg2 (by decide)).trans (a1_2 m ρ c)
theorem a2_19 : W2 m ρ c (Proc.devRef .tc main_arg19) = (m ((c : Thread nD τ).loc main_arg19)) :=
  (W2_of_ne m ρ c main_arg19 (by decide)).trans (a1_19 m ρ c)
theorem a2_20 : W2 m ρ c (Proc.devRef .tc main_arg20) = (m ((c : Thread nD τ).loc main_arg20)) :=
  (W2_of_ne m ρ c main_arg20 (by decide)).trans (a1_20 m ρ c)
theorem a2_21 : W2 m ρ c (Proc.devRef .tc main_arg21) = (m ((c : Thread nD τ).loc main_arg21)) :=
  (W2_of_ne m ρ c main_arg21 (by decide)).trans (a1_21 m ρ c)
theorem a2_22 : W2 m ρ c (Proc.devRef .tc main_arg22) = (m ((c : Thread nD τ).loc main_arg22)) :=
  (W2_of_ne m ρ c main_arg22 (by decide)).trans (a1_22 m ρ c)
theorem a3_12 : W3 m ρ c (Proc.devRef .tc main_arg12) = (m ((c : Thread nD τ).loc main_arg12)) :=
  (show StableHlo.after hostOps1 (W2 m ρ c) (Proc.devRef .tc main_arg12) = W2 m ρ c (Proc.devRef .tc main_arg12) by unwritten_by hostOps1).trans (a2_12 m ρ c)
theorem a3_14 : W3 m ρ c (Proc.devRef .tc main_arg14) = (m ((c : Thread nD τ).loc main_arg14)) :=
  (show StableHlo.after hostOps1 (W2 m ρ c) (Proc.devRef .tc main_arg14) = W2 m ρ c (Proc.devRef .tc main_arg14) by unwritten_by hostOps1).trans (a2_14 m ρ c)
theorem a3_15 : W3 m ρ c (Proc.devRef .tc main_arg15) = (m ((c : Thread nD τ).loc main_arg15)) :=
  (show StableHlo.after hostOps1 (W2 m ρ c) (Proc.devRef .tc main_arg15) = W2 m ρ c (Proc.devRef .tc main_arg15) by unwritten_by hostOps1).trans (a2_15 m ρ c)
theorem a3_16 : W3 m ρ c (Proc.devRef .tc main_arg16) = (m ((c : Thread nD τ).loc main_arg16)) :=
  (show StableHlo.after hostOps1 (W2 m ρ c) (Proc.devRef .tc main_arg16) = W2 m ρ c (Proc.devRef .tc main_arg16) by unwritten_by hostOps1).trans (a2_16 m ρ c)
theorem a3_17 : W3 m ρ c (Proc.devRef .tc main_arg17) = (m ((c : Thread nD τ).loc main_arg17)) :=
  (show StableHlo.after hostOps1 (W2 m ρ c) (Proc.devRef .tc main_arg17) = W2 m ρ c (Proc.devRef .tc main_arg17) by unwritten_by hostOps1).trans (a2_17 m ρ c)
theorem a3_18 : W3 m ρ c (Proc.devRef .tc main_arg18) = (m ((c : Thread nD τ).loc main_arg18)) :=
  (show StableHlo.after hostOps1 (W2 m ρ c) (Proc.devRef .tc main_arg18) = W2 m ρ c (Proc.devRef .tc main_arg18) by unwritten_by hostOps1).trans (a2_18 m ρ c)
theorem a3_2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by unwritten_by hostOps1).trans (a2_2 m ρ c)
theorem a3_19 : W3 m ρ c (Proc.devRef .tc main_arg19) = (m ((c : Thread nD τ).loc main_arg19)) :=
  (show StableHlo.after hostOps1 (W2 m ρ c) (Proc.devRef .tc main_arg19) = W2 m ρ c (Proc.devRef .tc main_arg19) by unwritten_by hostOps1).trans (a2_19 m ρ c)
theorem a3_20 : W3 m ρ c (Proc.devRef .tc main_arg20) = (m ((c : Thread nD τ).loc main_arg20)) :=
  (show StableHlo.after hostOps1 (W2 m ρ c) (Proc.devRef .tc main_arg20) = W2 m ρ c (Proc.devRef .tc main_arg20) by unwritten_by hostOps1).trans (a2_20 m ρ c)
theorem a3_21 : W3 m ρ c (Proc.devRef .tc main_arg21) = (m ((c : Thread nD τ).loc main_arg21)) :=
  (show StableHlo.after hostOps1 (W2 m ρ c) (Proc.devRef .tc main_arg21) = W2 m ρ c (Proc.devRef .tc main_arg21) by unwritten_by hostOps1).trans (a2_21 m ρ c)
theorem a3_22 : W3 m ρ c (Proc.devRef .tc main_arg22) = (m ((c : Thread nD τ).loc main_arg22)) :=
  (show StableHlo.after hostOps1 (W2 m ρ c) (Proc.devRef .tc main_arg22) = W2 m ρ c (Proc.devRef .tc main_arg22) by unwritten_by hostOps1).trans (a2_22 m ρ c)
theorem a4_2 : W4 m ρ c (Proc.devRef .tc main_arg2) = (m ((c : Thread nD τ).loc main_arg2)) :=
  (W4_of_ne m ρ c main_arg2 (by decide)).trans (a3_2 m ρ c)
theorem a4_19 : W4 m ρ c (Proc.devRef .tc main_arg19) = (m ((c : Thread nD τ).loc main_arg19)) :=
  (W4_of_ne m ρ c main_arg19 (by decide)).trans (a3_19 m ρ c)
theorem a4_20 : W4 m ρ c (Proc.devRef .tc main_arg20) = (m ((c : Thread nD τ).loc main_arg20)) :=
  (W4_of_ne m ρ c main_arg20 (by decide)).trans (a3_20 m ρ c)
theorem a4_21 : W4 m ρ c (Proc.devRef .tc main_arg21) = (m ((c : Thread nD τ).loc main_arg21)) :=
  (W4_of_ne m ρ c main_arg21 (by decide)).trans (a3_21 m ρ c)
theorem a4_22 : W4 m ρ c (Proc.devRef .tc main_arg22) = (m ((c : Thread nD τ).loc main_arg22)) :=
  (W4_of_ne m ρ c main_arg22 (by decide)).trans (a3_22 m ρ c)
theorem a5_20 : W5 m ρ c (Proc.devRef .tc main_arg20) = (m ((c : Thread nD τ).loc main_arg20)) :=
  (show StableHlo.after hostOps2 (W4 m ρ c) (Proc.devRef .tc main_arg20) = W4 m ρ c (Proc.devRef .tc main_arg20) by unwritten_by hostOps2).trans (a4_20 m ρ c)
theorem a5_22 : W5 m ρ c (Proc.devRef .tc main_arg22) = (m ((c : Thread nD τ).loc main_arg22)) :=
  (show StableHlo.after hostOps2 (W4 m ρ c) (Proc.devRef .tc main_arg22) = W4 m ρ c (Proc.devRef .tc main_arg22) by unwritten_by hostOps2).trans (a4_22 m ρ c)

/-! ## Before and after the first region -/

theorem src1 : W1 m ρ c (Proc.devRef .tc main_v1) = srcRow (m ((c : Thread nD τ).loc main_arg1)) := by
  show StableHlo.after hostOps0 (W0 m ρ c) (Proc.devRef .tc main_v1) = _
  after_results; rfl
theorem dst1 : W1 m ρ c (Proc.devRef .tc main_v3) = dstRow (m ((c : Thread nD τ).loc main_arg1)) := by
  show StableHlo.after hostOps0 (W0 m ρ c) (Proc.devRef .tc main_v3) = _
  after_results; rfl
set_option maxHeartbeats 8000000 in
theorem z1 : V1 m ρ c main_v17 = agg64 (m ((c : Thread nD τ).loc main_arg0)) (srcRow (m ((c : Thread nD τ).loc main_arg1))) (dstRow (m ((c : Thread nD τ).loc main_arg1))) := by
  show StableHlo.after hostOps0 (W0 m ρ c) (Proc.devRef .tc main_v17) = _
  after_results_simp <;> rfl
theorem wa1 : V1 m ρ c main_v18 = (truncf .bf16 (m ((c : Thread nD τ).loc main_arg3)) bitsLt_bf16_f32 : FVec Ideal S64x32 .bf16) := by
  show StableHlo.after hostOps0 (W0 m ρ c) (Proc.devRef .tc main_v18) = _
  after_results
theorem wb1 : V1 m ρ c main_v19 = (truncf .bf16 (m ((c : Thread nD τ).loc main_arg5)) bitsLt_bf16_f32 : FVec Ideal S32x32 .bf16) := by
  show StableHlo.after hostOps0 (W0 m ρ c) (Proc.devRef .tc main_v19) = _
  after_results

/-- After the first region its result buffer holds the perceptron stage of the aggregated input features. -/
theorem conv1 : W2 m ρ c (Proc.devRef .tc main_v20) = perceptron (agg64 (m ((c : Thread nD τ).loc main_arg0)) (srcRow (m ((c : Thread nD τ).loc main_arg1))) (dstRow (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 9).trans ((Stage0.final (V1 m ρ) c).trans ?_)
  unfold Stage0.stage perceptron
  rw [z1 m ρ c, wa1 m ρ c, wb1 m ρ c,
    show V1 m ρ c main_arg4 = _ from a1_4 m ρ c, show V1 m ρ c main_arg6 = _ from a1_6 m ρ c, show V1 m ρ c main_arg7 = _ from a1_7 m ρ c,
    show V1 m ρ c main_arg8 = _ from a1_8 m ρ c, show V1 m ρ c main_arg9 = _ from a1_9 m ρ c, show V1 m ρ c main_arg10 = _ from a1_10 m ρ c]
  rfl

theorem src2 : W2 m ρ c (Proc.devRef .tc main_v1) = srcRow (m ((c : Thread nD τ).loc main_arg1)) := (W2_of_ne m ρ c main_v1 (by decide)).trans (src1 m ρ c)
theorem dst2 : W2 m ρ c (Proc.devRef .tc main_v3) = dstRow (m ((c : Thread nD τ).loc main_arg1)) := (W2_of_ne m ρ c main_v3 (by decide)).trans (dst1 m ρ c)

/-! ## Before and after the second region -/

set_option maxHeartbeats 8000000 in
theorem z2 : V3 m ρ c main_v34 = agg32 (perceptron (agg64 (m ((c : Thread nD τ).loc main_arg0)) (srcRow (m ((c : Thread nD τ).loc main_arg1))) (dstRow (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcRow (m ((c : Thread nD τ).loc main_arg1))) (dstRow (m ((c : Thread nD τ).loc main_arg1))) := by
  have h : V3 m ρ c main_v34 = agg32 (W2 m ρ c (Proc.devRef .tc main_v20)) (W2 m ρ c (Proc.devRef .tc main_v1)) (W2 m ρ c (Proc.devRef .tc main_v3)) := by
    show StableHlo.after hostOps1 (W2 m ρ c) (Proc.devRef .tc main_v34) = _
    after_results_simp <;> rfl
  rw [h, conv1 m ρ c, src2 m ρ c, dst2 m ρ c]
theorem wa2 : V3 m ρ c main_v35 = (truncf .bf16 (m ((c : Thread nD τ).loc main_arg11)) bitsLt_bf16_f32 : FVec Ideal S32x32 .bf16) := by
  have h : V3 m ρ c main_v35 = (truncf .bf16 (W2 m ρ c (Proc.devRef .tc main_arg11)) bitsLt_bf16_f32 : FVec Ideal S32x32 .bf16) := by
    show StableHlo.after hostOps1 (W2 m ρ c) (Proc.devRef .tc main_v35) = _
    after_results
  rw [h, a2_11 m ρ c]
theorem wb2 : V3 m ρ c main_v36 = (truncf .bf16 (m ((c : Thread nD τ).loc main_arg13)) bitsLt_bf16_f32 : FVec Ideal S32x32 .bf16) := by
  have h : V3 m ρ c main_v36 = (truncf .bf16 (W2 m ρ c (Proc.devRef .tc main_arg13)) bitsLt_bf16_f32 : FVec Ideal S32x32 .bf16) := by
    show StableHlo.after hostOps1 (W2 m ρ c) (Proc.devRef .tc main_v36) = _
    after_results
  rw [h, a2_13 m ρ c]

/-- After the second region its result buffer holds the perceptron stage of the aggregated first-layer features. -/
theorem conv2 : W4 m ρ c (Proc.devRef .tc main_v37) = perceptron (agg32 (perceptron (agg64 (m ((c : Thread nD τ).loc main_arg0)) (srcRow (m ((c : Thread nD τ).loc main_arg1))) (dstRow (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcRow (m ((c : Thread nD τ).loc main_arg1))) (dstRow (m ((c : Thread nD τ).loc main_arg1)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W4_arr m ρ c 9).trans ((Stage1.final (V3 m ρ) c).trans ?_)
  unfold Stage1.stage perceptron
  rw [z2 m ρ c, wa2 m ρ c, wb2 m ρ c,
    show V3 m ρ c main_arg12 = _ from a3_12 m ρ c, show V3 m ρ c main_arg14 = _ from a3_14 m ρ c, show V3 m ρ c main_arg15 = _ from a3_15 m ρ c,
    show V3 m ρ c main_arg16 = _ from a3_16 m ρ c, show V3 m ρ c main_arg17 = _ from a3_17 m ρ c, show V3 m ρ c main_arg18 = _ from a3_18 m ρ c]
  rfl

/-! ## Before and after the last region -/

set_option maxHeartbeats 8000000 in
theorem pooled : V5 m ρ c main_v40 = pool (perceptron (agg32 (perceptron (agg64 (m ((c : Thread nD τ).loc main_arg0)) (srcRow (m ((c : Thread nD τ).loc main_arg1))) (dstRow (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcRow (m ((c : Thread nD τ).loc main_arg1))) (dstRow (m ((c : Thread nD τ).loc main_arg1)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg2)) := by
  have h : V5 m ρ c main_v40 = pool (W4 m ρ c (Proc.devRef .tc main_v37)) (W4 m ρ c (Proc.devRef .tc main_arg2)) := by
    show StableHlo.after hostOps2 (W4 m ρ c) (Proc.devRef .tc main_v40) = _
    after_results_simp <;> rfl
  rw [h, conv2 m ρ c, a4_2 m ρ c]
theorem wf1 : V5 m ρ c main_v41 = (truncf .bf16 (m ((c : Thread nD τ).loc main_arg19)) bitsLt_bf16_f32 : FVec Ideal S32x32 .bf16) := by
  have h : V5 m ρ c main_v41 = (truncf .bf16 (W4 m ρ c (Proc.devRef .tc main_arg19)) bitsLt_bf16_f32 : FVec Ideal S32x32 .bf16) := by
    show StableHlo.after hostOps2 (W4 m ρ c) (Proc.devRef .tc main_v41) = _
    after_results
  rw [h, a4_19 m ρ c]
theorem wf2 : V5 m ρ c main_v42 = (truncf .bf16 (m ((c : Thread nD τ).loc main_arg21)) bitsLt_bf16_f32 : FVec Ideal S32x2 .bf16) := by
  have h : V5 m ρ c main_v42 = (truncf .bf16 (W4 m ρ c (Proc.devRef .tc main_arg21)) bitsLt_bf16_f32 : FVec Ideal S32x2 .bf16) := by
    show StableHlo.after hostOps2 (W4 m ρ c) (Proc.devRef .tc main_v42) = _
    after_results
  rw [h, a4_21 m ρ c]

/-- The result buffer at the last boundary: the softmax of the head's logits of the pooled second-layer features. -/
theorem result : W6 m ρ c (Proc.devRef .tc main_v43)
    = softmaxOf reduces_S256x2_S256 (logitsArr (pool (perceptron (agg32 (perceptron (agg64 (m ((c : Thread nD τ).loc main_arg0)) (srcRow (m ((c : Thread nD τ).loc main_arg1))) (dstRow (m ((c : Thread nD τ).loc main_arg1)))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (srcRow (m ((c : Thread nD τ).loc main_arg1))) (dstRow (m ((c : Thread nD τ).loc main_arg1)))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg2))) (m ((c : Thread nD τ).loc main_arg19)) (m ((c : Thread nD τ).loc main_arg20)) (m ((c : Thread nD τ).loc main_arg21)) (m ((c : Thread nD τ).loc main_arg22))) := by
  refine (W6_arr m ρ c 5).trans ((Stage2.final (V5 m ρ) c).trans ?_)
  unfold Stage2.head Stage2.logitsOf logitsArr
  rw [pooled m ρ c, wf1 m ρ c, wf2 m ρ c,
    show V5 m ρ c main_arg20 = _ from a5_20 m ρ c, show V5 m ρ c main_arg22 = _ from a5_22 m ρ c]
  rfl

end Cert.KernelIdeal.Value

end
-- ==== Proof.ReferenceStages.lean ====
/-
  The reference, stage by stage, in the formulas both programs meet in. Its first graph convolution is the perceptron
  stage of the aggregated input features, its second the stage of the aggregated first-layer features, and its output the
  softmax of the head's logits of the pooled second-layer features. Each aggregation (a gather at the edges' sources, a
  segment sum at their targets, plus the table) and the pooling (a segment sum by graph) is left as the array the
  reference computes: the stages read it row by row and never open it.
-/
import proofs.«113044_j2869038153787_2_alg».proof.Proof.Gen.ReferenceIdeal.Read
import proofs.«113044_j2869038153787_2_alg».proof.Proof.PerceptronRow
import proofs.«113044_j2869038153787_2_alg».proof.Proof.HeadRow

set_option maxRecDepth 16384

noncomputable section

namespace Cert.ReferenceIdeal.Stages

open Cert.ReferenceIdeal Cert.ReferenceIdeal.Gen Cert.ReferenceIdeal.Read Cert.Gin
open Idealize.ShloMosaic Idealize.ShloMosaic.ValueIdx

variable (x0 : (⟨S150000x64, .f32⟩ : BufTy).Contents (Elt Ideal)) (x1 : (⟨S2x2400000, .i32⟩ : BufTy).Contents (Elt Ideal)) (x2 : (⟨S150000, .i32⟩ : BufTy).Contents (Elt Ideal)) (x3 : (⟨S64x32, .f32⟩ : BufTy).Contents (Elt Ideal)) (x4 : (⟨S32, .f32⟩ : BufTy).Contents (Elt Ideal)) (x5 : (⟨S32x32, .f32⟩ : BufTy).Contents (Elt Ideal)) (x6 x7 x8 x9 x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32x32, .f32⟩ : BufTy).Contents (Elt Ideal)) (x14 x15 x16 x17 x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S32x2, .f32⟩ : BufTy).Contents (Elt Ideal)) (x22 : (⟨S2, .f32⟩ : BufTy).Contents (Elt Ideal))

/-- The first convolution's output is the perceptron stage of the aggregated input features. -/
theorem conv1_eq : val_main_v40 (F := Ideal) x0 x1 x3 x4 x5 x6 x7 x8 x9 x10
    = perceptron (val_main_v14 (F := Ideal) x0 x1) x3 x4 x5 x6 x7 x8 x9 x10 := by
  funext i
  obtain ⟨p, j, rfl⟩ : ∃ (p : Fin 150000) (j : Fin 32), i = ix2 p j := ⟨i 0, i 1, eq_ix2 i⟩
  exact hostMlp_ix2 dot_S150000x64_S64x32_S150000x32_1_0_0_1_n_n dot_S150000x32_S32x32_S150000x32_1_0_0_1_n_n
    rfl rfl rfl rfl rfl rfl rfl rfl rfl rfl rfl rfl _ _ _ _ (val_main_v14 (F := Ideal) x0 x1) x3 x4 x5 x6 x7 x8 x9 x10 p j

/-- The second convolution's output is the perceptron stage of the aggregated first-layer features. -/
theorem conv2_eq : val_main_v77 (F := Ideal) x0 x1 x3 x4 x5 x6 x7 x8 x9 x10 x11 x12 x13 x14 x15 x16 x17 x18
    = perceptron (val_main_v51 (F := Ideal) x0 x1 x3 x4 x5 x6 x7 x8 x9 x10) x11 x12 x13 x14 x15 x16 x17 x18 := by
  funext i
  obtain ⟨p, j, rfl⟩ : ∃ (p : Fin 150000) (j : Fin 32), i = ix2 p j := ⟨i 0, i 1, eq_ix2 i⟩
  exact hostMlp_ix2 dot_S150000x32_S32x32_S150000x32_1_0_0_1_n_n dot_S150000x32_S32x32_S150000x32_1_0_0_1_n_n
    rfl rfl rfl rfl rfl rfl rfl rfl rfl rfl rfl rfl _ _ _ _ (val_main_v51 (F := Ideal) x0 x1 x3 x4 x5 x6 x7 x8 x9 x10) x11 x12 x13 x14 x15 x16 x17 x18 p j

/-- The output is the softmax of the head's logits of the pooled second-layer features. -/
theorem head_eq (h : SL.Reduces [(1 : Fin 2)] SR) : val_main_v100 (F := Ideal) x0 x1 x2 x3 x4 x5 x6 x7 x8 x9 x10 x11 x12 x13 x14 x15 x16 x17 x18 x19 x20 x21 x22
    = softmaxOf h (logitsArr (val_main_v80 (F := Ideal) x0 x1 x2 x3 x4 x5 x6 x7 x8 x9 x10 x11 x12 x13 x14 x15 x16 x17 x18) x19 x20 x21 x22) := by
  refine (hostSoftmax_eq h reducesTo_S256x2_S256_d1 bcast_S256_S256x1_0 bcast_S256x1_S256x2_0_1 bcast_S_S256 h_S_
    (val_main_v89 (F := Ideal) x0 x1 x2 x3 x4 x5 x6 x7 x8 x9 x10 x11 x12 x13 x14 x15 x16 x17 x18 x19 x20 x21 x22)).trans ?_
  refine congrArg (softmaxOf h) (funext fun x => ?_)
  obtain ⟨p, c, rfl⟩ : ∃ (p : Fin 256) (c : Fin 2), x = ix2 p c := ⟨x 0, x 1, eq_ix2 x⟩
  exact hostLogits_ix2 dot_S256x32_S32x32_S256x32_1_0_0_1_n_n dot_S256x32_S32x2_S256x2_1_0_0_1_n_n
    rfl rfl rfl rfl rfl rfl rfl rfl rfl rfl rfl rfl _ _ _ _ _ (val_main_v80 (F := Ideal) x0 x1 x2 x3 x4 x5 x6 x7 x8 x9 x10 x11 x12 x13 x14 x15 x16 x17 x18) x19 x20 x21 x22 p c

end Cert.ReferenceIdeal.Stages

end
-- ==== Proof.Targets.lean ====
/-
  What the added precondition says, edge by edge. The precondition is a conjunction that ends with "every entry of the
  edge list's second row (the target node of each edge) is at least 0"; read on one edge e it says that the signed
  comparison target(e) ≥ 0 holds. A target that is not negative is not wrapped: the select "if target < 0 then
  target + N else target" that an indexed update applies to its indices returns the target itself. Outside this domain
  the reference's own segment sum indexes out of range.
-/
import proofs.«113044_j2869038153787_2_alg».proof.Pre_finite_inputs
import Idealize.ShloMosaic.Lib.ReduceAll
import Idealize.ShloMosaic.Lib.ValueIdx

set_option maxRecDepth 16384

noncomputable section

namespace Cert.Gin.Targets

open Idealize.ShloMosaic Cert.Pre_finite_inputs

theorem ofBool_eq_one (b : Bool) : BitVec.ofBool b = 1#1 ↔ b = true := by cases b <;> decide
theorem and_one : ∀ (a b : BitVec 1), IntOp.andi a b = 1#1 ↔ a = 1#1 ∧ b = 1#1 := by decide

/-- A word that is at least 0 (signed) is not below 0 (signed). -/
theorem not_slt_of_sge (w : BitVec 32) (h : IntOp.cmpi .sge w 0#32 = 1#1) : ¬ IntOp.cmpi .slt w 0#32 = 1#1 := by
  unfold IntOp.cmpi at h ⊢
  rw [ofBool_eq_one] at h ⊢
  simp only [BitVec.slt, BitVec.sle, decide_eq_true_eq] at h ⊢
  omega

variable [Facts]
open Facts

instance : Subsingleton S_.Idx := ⟨fun a b => funext fun d => d.elim0⟩

/-- The edge list's second row as a vector over the edges. -/
abbrev targets (a1 : IVec S2x2400000 32) : IVec S2400000 32 :=
  shapeCast S2400000 (extractStridedSlice S1x2400000 ![1, 0] a1 slices_S2x2400000_S1x2400000_1_0) shapeCasts_S1x2400000_S2400000

variable {F : FTy → Type} [FloatOps F]

/-- Under the precondition every edge's target is at least 0. -/
theorem target_nonneg (a0 : FVec F S150000x64 .f32) (a1 : IVec S2x2400000 32) (a2 : IVec S150000 32) (a3 : FVec F S64x32 .f32)
    (a4 : FVec F S32 .f32) (a5 : FVec F S32x32 .f32) (a6 a7 a8 a9 a10 : FVec F S32 .f32) (a11 : FVec F S32x32 .f32)
    (a12 : FVec F S32 .f32) (a13 : FVec F S32x32 .f32) (a14 a15 a16 a17 a18 : FVec F S32 .f32) (a19 : FVec F S32x32 .f32)
    (a20 : FVec F S32 .f32) (a21 : FVec F S32x2 .f32) (a22 : FVec F S2 .f32)
    (h : fn (F := F) a0 a1 a2 a3 a4 a5 a6 a7 a8 a9 a10 a11 a12 a13 a14 a15 a16 a17 a18 a19 a20 a21 a22 = fun _ => 1#1) (e : S2400000.Idx) :
    IntOp.cmpi .sge (targets a1 e) 0#32 = 1#1 := by
  obtain ⟨x, y, z, hx⟩ : ∃ x y z, fn (F := F) a0 a1 a2 a3 a4 a5 a6 a7 a8 a9 a10 a11 a12 a13 a14 a15 a16 a17 a18 a19 a20 a21 a22 = fn_part6 (F := F) a1 x y z := ⟨_, _, _, rfl⟩
  rw [hx] at h
  have h0 : IntOp.andi (andi x (Host.reduce IntOp.andi y z reducesTo_S2_S_d0 h_S_) ValueIdx.ix0)
      (Host.reduce IntOp.andi (cmpi .sge (targets a1) (broadcastInDim S2400000 ![] bcast_S_S2400000 (constantI S_ 32 0#32)))
        (constantI S_ 1 1#1) reducesTo_S2400000_S_d0 h_S_ ValueIdx.ix0) = 1#1 := congrFun h ValueIdx.ix0
  exact Host.reduce_andi_all _ _ _ _ _ ((and_one _ _).mp h0).2 e

/-- So the wrap of negative indices leaves the targets as they are. -/
theorem wrap_eq (a1 : IVec S2x2400000 32) (hpos : ∀ e, IntOp.cmpi .sge (targets a1 e) 0#32 = 1#1) (N : BitVec 32) :
    select (cmpi .slt (targets a1) (broadcastInDim S2400000 ![] bcast_S_S2400000 (constantI S_ 32 0#32)))
        (addi (targets a1) (broadcastInDim S2400000 ![] bcast_S_S2400000 (constantI S_ 32 N))) (targets a1)
      = targets a1 := by
  funext e
  show Scalar.select (IntOp.cmpi .slt (targets a1 e) 0#32) _ (targets a1 e) = targets a1 e
  unfold Scalar.select
  exact if_neg (not_slt_of_sge _ (hpos e))

end Cert.Gin.Targets

end
-- ==== Proof.Bridge.lean ====
/-
  The two programs compute one function. With every edge's target at least 0 the wrap of the targets is the identity, so both
  programs scatter at the same start indices; the updates are the same gathered rows; so the kernel's "features with the
  neighbour rows added on" is the reference's "features plus the segment sum of the neighbour rows" (x + Σ against
  x + (0 + Σ)). The perceptron stage of equal arrays is equal, the second aggregation and stage follow in the same way, the
  pooling is the same segment sum of equal arrays, and the head's softmax of equal pooled rows is equal.
-/
import proofs.«113044_j2869038153787_2_alg».proof.Proof.KernelStages
import proofs.«113044_j2869038153787_2_alg».proof.Proof.ReferenceStages
import proofs.«113044_j2869038153787_2_alg».proof.Proof.Targets

set_option maxRecDepth 16384

noncomputable section

namespace Cert.KernelIdeal.Value

open Cert.KernelIdeal Cert.KernelIdeal.Gen Cert.Gin
open Idealize.ShloMosaic Idealize.ShloMosaic.TcCoe Idealize.SL.Sem Idealize.ShloMosaic.ValueIdx

/-- Every edge's target is at least 0 (signed). -/
def TargetsNonneg (a1 : IVec S2x2400000 32) : Prop := ∀ e, IntOp.cmpi .sge (dstRow a1 e) 0#32 = 1#1

/-- Targets that are not negative are not wrapped. -/
theorem wrapped_dst (a1 : IVec S2x2400000 32) (hpos : TargetsNonneg a1) :
    wrapped (dstRow a1) = broadcastInDim S2400000x1 ![0] bcast_S2400000_S2400000x1_0 (dstRow a1) := by
  refine congrArg (fun r : IVec S2400000 32 => broadcastInDim S2400000x1 ![0] bcast_S2400000_S2400000x1_0 r) (funext fun e => ?_)
  show Scalar.select (IntOp.cmpi .slt (dstRow a1 e) 0#32) _ (dstRow a1 e) = dstRow a1 e
  unfold Scalar.select
  exact if_neg (Cert.Gin.Targets.not_slt_of_sge _ (hpos e))

/-- With the targets not negative, the features with the neighbour rows added on are the features plus the scatter of the
    neighbour rows onto zeros at the raw targets: width 64, width 32. -/
theorem agg64_onto (hz : S_.BroadcastsInDim S150000x64 ![]) (y : FVec Ideal S150000x64 .f32) (a1 : IVec S2x2400000 32)
    (hpos : TargetsNonneg a1) :
    agg64 y (srcRow a1) (dstRow a1)
      = addf y (Host.scatterAdd scatter_S150000x64_S2400000x1_S2400000x64_1_0_0_1
          (broadcastInDim S150000x64 ![] hz (constant S_ .f32 0x00000000#32))
          (broadcastInDim S2400000x1 ![0] bcast_S2400000_S2400000x1_0 (dstRow a1))
          (Host.gather gather_S150000x64_S2400000x1_S2400000x64_1_0_n_n_0_1_164 y (wrapped (srcRow a1)))) := by
  show Host.scatterAdd _ y (wrapped (dstRow a1)) _ = _
  rw [wrapped_dst a1 hpos]
  exact scatterAdd_onto _ hz y _ _
theorem agg32_onto (hz : S_.BroadcastsInDim S150000x32 ![]) (y : FVec Ideal S150000x32 .f32) (a1 : IVec S2x2400000 32)
    (hpos : TargetsNonneg a1) :
    agg32 y (srcRow a1) (dstRow a1)
      = addf y (Host.scatterAdd scatter_S150000x32_S2400000x1_S2400000x32_1_0_0_1
          (broadcastInDim S150000x32 ![] hz (constant S_ .f32 0x00000000#32))
          (broadcastInDim S2400000x1 ![0] bcast_S2400000_S2400000x1_0 (dstRow a1))
          (Host.gather gather_S150000x32_S2400000x1_S2400000x32_1_0_n_n_0_1_132 y (wrapped (srcRow a1)))) := by
  show Host.scatterAdd _ y (wrapped (dstRow a1)) _ = _
  rw [wrapped_dst a1 hpos]
  exact scatterAdd_onto _ hz y _ _

variable (x0 : FVec Ideal S150000x64 .f32) (x1 : IVec S2x2400000 32) (x2 : IVec S150000 32) (x3 : FVec Ideal S64x32 .f32) (x4 : FVec Ideal S32 .f32) (x5 : FVec Ideal S32x32 .f32) (x6 x7 x8 x9 x10 : FVec Ideal S32 .f32) (x11 : FVec Ideal S32x32 .f32) (x12 : FVec Ideal S32 .f32) (x13 : FVec Ideal S32x32 .f32) (x14 x15 x16 x17 x18 : FVec Ideal S32 .f32) (x19 : FVec Ideal S32x32 .f32) (x20 : FVec Ideal S32 .f32) (x21 : FVec Ideal S32x2 .f32) (x22 : FVec Ideal S2 .f32)

/-- The aggregated input features. -/
theorem agg1_eq (hpos : TargetsNonneg x1) : agg64 x0 (srcRow x1) (dstRow x1) = Cert.ReferenceIdeal.Read.val_main_v14 (F := Ideal) x0 x1 := by
  exact agg64_onto _ x0 x1 hpos

/-- The first convolution. -/
theorem conv1_eq (hpos : TargetsNonneg x1) :
    perceptron (agg64 x0 (srcRow x1) (dstRow x1)) x3 x4 x5 x6 x7 x8 x9 x10 = Cert.ReferenceIdeal.Read.val_main_v40 (F := Ideal) x0 x1 x3 x4 x5 x6 x7 x8 x9 x10 := by
  rw [agg1_eq x0 x1 hpos]
  exact (Cert.ReferenceIdeal.Stages.conv1_eq x0 x1 x3 x4 x5 x6 x7 x8 x9 x10).symm

/-- The aggregated first-layer features. -/
theorem agg2_eq (hpos : TargetsNonneg x1) :
    agg32 (perceptron (agg64 x0 (srcRow x1) (dstRow x1)) x3 x4 x5 x6 x7 x8 x9 x10) (srcRow x1) (dstRow x1)
      = Cert.ReferenceIdeal.Read.val_main_v51 (F := Ideal) x0 x1 x3 x4 x5 x6 x7 x8 x9 x10 := by
  rw [conv1_eq x0 x1 x3 x4 x5 x6 x7 x8 x9 x10 hpos]
  exact agg32_onto _ _ x1 hpos

/-- The second convolution. -/
theorem conv2_eq (hpos : TargetsNonneg x1) :
    perceptron (agg32 (perceptron (agg64 x0 (srcRow x1) (dstRow x1)) x3 x4 x5 x6 x7 x8 x9 x10) (srcRow x1) (dstRow x1))
        x11 x12 x13 x14 x15 x16 x17 x18
      = Cert.ReferenceIdeal.Read.val_main_v77 (F := Ideal) x0 x1 x3 x4 x5 x6 x7 x8 x9 x10 x11 x12 x13 x14 x15 x16 x17 x18 := by
  rw [agg2_eq x0 x1 x3 x4 x5 x6 x7 x8 x9 x10 hpos]
  exact (Cert.ReferenceIdeal.Stages.conv2_eq x0 x1 x3 x4 x5 x6 x7 x8 x9 x10 x11 x12 x13 x14 x15 x16 x17 x18).symm

/-- The whole network. -/
theorem net_eq (hpos : TargetsNonneg x1) :
    softmaxOf reduces_S256x2_S256 (logitsArr (pool (perceptron (agg32 (perceptron (agg64 x0 (srcRow x1) (dstRow x1))
        x3 x4 x5 x6 x7 x8 x9 x10) (srcRow x1) (dstRow x1)) x11 x12 x13 x14 x15 x16 x17 x18) x2) x19 x20 x21 x22)
      = Cert.ReferenceIdeal.Read.val_main_v100 (F := Ideal) x0 x1 x2 x3 x4 x5 x6 x7 x8 x9 x10 x11 x12 x13 x14 x15 x16 x17 x18 x19 x20 x21 x22 := by
  rw [conv2_eq x0 x1 x3 x4 x5 x6 x7 x8 x9 x10 x11 x12 x13 x14 x15 x16 x17 x18 hpos]
  exact (Cert.ReferenceIdeal.Stages.head_eq x0 x1 x2 x3 x4 x5 x6 x7 x8 x9 x10 x11 x12 x13 x14 x15 x16 x17 x18 x19 x20 x21 x22 reduces_S256x2_S256).symm

end Cert.KernelIdeal.Value

end
-- ==== Proof.lean ====
/-
  The certificate of a two-layer graph isomorphism network with a softmax head: the kernel against its reference.

  Both programs compute, for node features X (150000 × 64), an edge list (source row, target row), a graph id per node
  and the layers' weights,
      Z₁ = X + Σ_{edges landing on a node} X[source],    H₁ = stage₁(Z₁),
      Z₂ = H₁ + Σ_{edges landing on a node} H₁[source],  H₂ = stage₂(Z₂),
      P  = Σ_{nodes of a graph} H₂,                       out = softmax(head(P)),
  where a stage is two dense layers with rectifiers, a normalisation with running statistics and a rectifier, applied
  to each node's row. The kernel runs the two stages and the head in three regions (the stages tiled over 25 blocks of
  6000 rows, their matrix products taken after a change of float format, which is the identity on extended reals) and
  adds the neighbour rows directly onto the feature table; the reference adds the table to a segment sum from zeros. On
  the extended reals x + Σ = x + (0 + Σ), so nothing about finiteness is used. What is used is the domain of the edge
  list's target row: the kernel's indexed update wraps a negative target by the node count while the reference's segment
  sum drops it, so the two agree where every target is at least 0 — the added conjunct of the precondition, outside which
  the reference itself indexes out of range.

  The three frames are the generated ones (the reference's is its generated run with the result dropped); the ideal
  pass rewrote nothing, so `preserves` is trivial; `algebraic` joins the kernel's run, read at the result buffer, to
  the reference's run through the stage-by-stage equalities of Proof/Bridge.lean.
-/
import proofs.«113044_j2869038153787_2_alg».proof.Defs
import proofs.«113044_j2869038153787_2_alg».proof.Proof.Gen.Kernel
import proofs.«113044_j2869038153787_2_alg».proof.Proof.Gen.Kernel.Skeleton
import proofs.«113044_j2869038153787_2_alg».proof.Proof.Gen.Kernel.Launch
import proofs.«113044_j2869038153787_2_alg».proof.Proof.Gen.Kernel.Points
import proofs.«113044_j2869038153787_2_alg».proof.Proof.Gen.Kernel.Frame
import proofs.«113044_j2869038153787_2_alg».proof.Proof.Gen.KernelIdeal
import proofs.«113044_j2869038153787_2_alg».proof.Proof.Gen.KernelIdeal.Skeleton
import proofs.«113044_j2869038153787_2_alg».proof.Proof.Gen.KernelIdeal.Launch
import proofs.«113044_j2869038153787_2_alg».proof.Proof.Gen.KernelIdeal.Points
import proofs.«113044_j2869038153787_2_alg».proof.Proof.Gen.KernelIdeal.Frame
import proofs.«113044_j2869038153787_2_alg».proof.Proof.Gen.ReferenceIdeal
import proofs.«113044_j2869038153787_2_alg».proof.Proof.Gen.Pre_finite_inputs
import proofs.«113044_j2869038153787_2_alg».proof.Proof.Gen.ReferenceIdeal.Run
import proofs.«113044_j2869038153787_2_alg».proof.Proof.Gen.ReferenceIdeal.Read
import proofs.«113044_j2869038153787_2_alg».proof.Proof.KernelRun
import proofs.«113044_j2869038153787_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, with every edge's target at least 0, both programs end with the same
    [256, 2] array of class probabilities. -/
theorem algebraic : Cert.algebraic_KernelIdeal_ReferenceIdeal := by
  intro m ρ m' ρ' hpre hagree
  refine ⟨_, Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  have hpos : Cert.KernelIdeal.Value.TargetsNonneg
      (m ((c.tc : Thread Cert.KernelIdeal.nD Cert.KernelIdeal.τ).loc Cert.KernelIdeal.main_arg1)) :=
    fun e => Cert.Gin.Targets.target_nonneg (F := Ideal) _ _ _ _ _ _ _ _ _ _ _ _ _ _ _ _ _ _ _ _ _ _ _ (hpre c) e
  obtain ⟨h0, h1, h2, h3, h4, h5, h6, h7, h8, h9, h10, h11, h12, h13, h14, h15, h16, h17, h18, h19, h20, h21, h22⟩ := hagree c
  rw [Cert.ReferenceIdeal.Read.val_main_v100_eq, h0, h1, h2, h3, h4, h5, h6, h7, h8, h9, h10, h11, h12, h13, h14, h15, h16, h17, h18, h19, h20, h21, h22]
  exact ((Cert.KernelIdeal.Value.result m ρ c).trans
    (Cert.KernelIdeal.Value.net_eq _ _ _ _ _ _ _ _ _ _ _ _ _ _ _ _ _ _ _ _ _ _ _ hpos)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
